-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x64x16 : Shape := ⟨3, ![512, 64, 16]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x64x16 : S_.BroadcastsInDim S512x64x16 (![] : Fin 0 → Fin S512x64x16.rank)
  reducesTo_S512x64x16_S_d0_1_2 : S512x64x16.ReducesTo [0, 1, 2] S_

variable [Facts]

def fn {F : FTy → Type} [FloatOps F] (main_arg0 : FVec F S512x512 .f32) (main_arg1 : FVec F S512x64x16 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x64x16 .f32 := Host.absf main_arg1
  let main_cst_0 : FVec F S_ .f32 := constant S_ .f32 0x7F800000#32
  let main_v5 : FVec F S512x64x16 .f32 := broadcastInDim S512x64x16 ![] bcast_S_S512x64x16 main_cst_0
  let main_v6 : IVec S512x64x16 1 := cmpf .olt main_v4 main_v5
  let main_c_1 : IVec S_ 1 := constantI S_ 1 1#1
  let main_v7 : IVec S_ 1 := (fun x v => Host.reduce IntOp.andi x v reducesTo_S512x64x16_S_d0_1_2 h_S_) main_v6 main_c_1
  let main_v8 : IVec S_ 1 := andi main_v3 main_v7
  main_v8
-- ==== Kernel.lean ====
abbrev S512x512 : Shape := ⟨2, ![512, 512]⟩
abbrev S512x64x16 : Shape := ⟨3, ![512, 64, 16]⟩
abbrev S512x16x64 : Shape := ⟨3, ![512, 16, 64]⟩
abbrev S512x1024 : Shape := ⟨2, ![512, 1024]⟩
abbrev S512x64 : Shape := ⟨2, ![512, 64]⟩
abbrev S128x16x64 : Shape := ⟨3, ![128, 16, 64]⟩
abbrev S128x64 : Shape := ⟨2, ![128, 64]⟩
abbrev S128x1x64 : Shape := ⟨3, ![128, 1, 64]⟩
abbrev S1x128x64 : Shape := ⟨3, ![1, 128, 64]⟩
abbrev S128x128x64 : Shape := ⟨3, ![128, 128, 64]⟩
abbrev S512x576 : Shape := ⟨2, ![512, 576]⟩

abbrev nBuf : Space → Nat
  | .hbm => 8
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x64x16, .f32⟩
  | .hbm, ⟨2, _⟩ => ⟨S512x16x64, .f32⟩
  | .hbm, ⟨3, _⟩ => ⟨S512x1024, .f32⟩
  | .hbm, ⟨4, _⟩ => ⟨S512x1024, .f32⟩
  | .hbm, ⟨5, _⟩ => ⟨S512x16x64, .f32⟩
  | .hbm, ⟨6, _⟩ => ⟨S512x64, .f32⟩
  | .hbm, ⟨7, _⟩ => ⟨S512x576, .f32⟩
  | .local _ .vmem, ⟨0, _⟩ => ⟨S512x512, .f32⟩
  | .local _ .vmem, ⟨1, _⟩ => ⟨S512x1024, .f32⟩
  | .local _ .vmem, ⟨2, _⟩ => ⟨S512x1024, .f32⟩
  | .local _ .vmem, ⟨3, _⟩ => ⟨S128x16x64, .f32⟩
  | .local _ .vmem, ⟨4, _⟩ => ⟨S128x16x64, .f32⟩
  | .local _ .vmem, ⟨5, _⟩ => ⟨S128x16x64, .f32⟩
  | .local _ .vmem, ⟨6, _⟩ => ⟨S128x16x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v191 : BitVec 1 := Scalar.cmpi .eq arg1 c3_i32
  let v192 : BitVec 32 := Scalar.extui v191
  let c0_i32_11 : BitVec 32 := 0#32
  let v193 : BitVec 1 := Scalar.cmpi .ne v192 c0_i32_11
  v193

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S512x64x16_S512x16x64_0_2_1 : S512x64x16.Transposes [0, 2, 1] S512x16x64
  shapeCasts_S512x16x64_S512x1024 : S512x16x64.ShapeCasts S512x1024
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x1024_S512x16x64 : S512x1024.ShapeCasts S512x16x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x16x64_S128x16x64_0_0_0 : ∀ a, (![0, 0, 0] : Fin 3 → Nat) a + S128x16x64.size a ≤ S128x16x64.size a
  h_S128x16x64 : 0 < S128x16x64.numel
  shapeCasts_S128x16x64_S128x16x64 : S128x16x64.ShapeCasts S128x16x64
  slices_S128x16x64_o0_0_0_S128x1x64 : S128x16x64.Slices ![0, 0, 0] S128x1x64
  shapeCasts_S128x1x64_S128x64 : S128x1x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  slices_S128x16x64_o0_1_0_S128x1x64 : S128x16x64.Slices ![0, 1, 0] S128x1x64
  slices_S128x16x64_o0_2_0_S128x1x64 : S128x16x64.Slices ![0, 2, 0] S128x1x64
  slices_S128x16x64_o0_3_0_S128x1x64 : S128x16x64.Slices ![0, 3, 0] S128x1x64
  slices_S128x16x64_o0_4_0_S128x1x64 : S128x16x64.Slices ![0, 4, 0] S128x1x64
  slices_S128x16x64_o0_5_0_S128x1x64 : S128x16x64.Slices ![0, 5, 0] S128x1x64
  slices_S128x16x64_o0_6_0_S128x1x64 : S128x16x64.Slices ![0, 6, 0] S128x1x64
  slices_S128x16x64_o0_7_0_S128x1x64 : S128x16x64.Slices ![0, 7, 0] S128x1x64
  slices_S128x16x64_o0_8_0_S128x1x64 : S128x16x64.Slices ![0, 8, 0] S128x1x64
  slices_S128x16x64_o0_9_0_S128x1x64 : S128x16x64.Slices ![0, 9, 0] S128x1x64
  slices_S128x16x64_o0_10_0_S128x1x64 : S128x16x64.Slices ![0, 10, 0] S128x1x64
  slices_S128x16x64_o0_11_0_S128x1x64 : S128x16x64.Slices ![0, 11, 0] S128x1x64
  slices_S128x16x64_o0_12_0_S128x1x64 : S128x16x64.Slices ![0, 12, 0] S128x1x64
  slices_S128x16x64_o0_13_0_S128x1x64 : S128x16x64.Slices ![0, 13, 0] S128x1x64
  slices_S128x16x64_o0_14_0_S128x1x64 : S128x16x64.Slices ![0, 14, 0] S128x1x64
  slices_S128x16x64_o0_15_0_S128x1x64 : S128x16x64.Slices ![0, 15, 0] S128x1x64
  reduces_S128x128x64_S128x64 : S128x128x64.Reduces [1] S128x64
  concatenates_S512x512_S512x64_S512x576_d1 : Shape.Concatenates [S512x512, S512x64] S512x576 1
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x64.size a ≤ S512x16x64.size a
  hwx1_0 : ∀ i : grid1.Coords, EltTy.bits .f32 = 32 ∨ (Rect.block (s := S512x16x64) S128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x16x64.size a ≤ S512x16x64.size a
  hwx1_1 : ∀ i : grid1.Coords, EltTy.bits .f32 = 32 ∨ (Rect.block (s := S512x16x64) S128x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S512x64x16 : Shape := ⟨3, ![512, 64, 16]⟩
abbrev S512x1024 : Shape := ⟨2, ![512, 1024]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x576 : Shape := ⟨2, ![512, 576]⟩

abbrev nBuf : Space → Nat
  | .hbm => 21
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x64x16, .f32⟩
  | .hbm, ⟨2, _⟩ => ⟨S512x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x64, .f32⟩
  | .hbm, ⟨20, _⟩ => ⟨S512x576, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S512x64x16_S512x1024 : S512x64x16.ShapeCasts S512x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d0 : S512x512x64.ReducesTo [0] S512x64
  bcast_S_S512x64 : S_.BroadcastsInDim S512x64 (![] : Fin 0 → Fin S512x64.rank)
  concatenates_S512x512_S512x64_S512x576_d1 : Shape.Concatenates [S512x512, S512x64] S512x576 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.Kernel.R0.lean ====
/-
  The first kernel region: one grid point, the whole of both operands staged, the body a single matrix product
  stored whole into the result's staging buffer.  At a parameter `V` (the TensorCore's buffer contents when the
  region is entered): each window's block, what the body leaves in the result's buffer as a function of the two
  loaded blocks, the body's triple, the proof data and the body obligation.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev r0_0 : Rect S512x512 := Rect.unit (s := S512x512) ![0, 0] S512x512.size inb_S512x512_S512x512_0_0
abbrev r0_1 : Rect S512x1024 := Rect.unit (s := S512x1024) ![0, 0] S512x1024.size inb_S512x1024_S512x1024_0_0

/-- The result's staging buffer after the body: its one store, the product of the two loaded blocks. -/
def out0_2 (x0 : Vec F S512x512 .f32) (x1 : Vec F S512x1024 .f32) : Vec F S512x1024 .f32 :=
  View.canon [⟨r0_1, k0_pay1 (View.ld x0 r0_0) (View.ld x1 r0_1)⟩]

/-- The one store covers the buffer. -/
theorem cover0_2 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-! ## The body's triple -/

set_option maxHeartbeats 1000000 in
/-- On whole staging memrefs, the two inputs' at contents `x0`, `x1` and the result's at anything, the body runs to
    the continuation holding the inputs' as they were and the result's at `out0_2 x0 x1`. -/
theorem sound_kernel0 (c : Dev nD) (E : Set ℕ) (i : grid0.Coords) (arg1 : Memref sig .tc .vmem S512x512 .f32) (harg1 : arg1.IsWhole) (arg2 : Memref sig .tc .vmem S512x1024 .f32) (harg2 : arg2.IsWhole) (arg3 : Memref sig .tc .vmem S512x1024 .f32) (harg3 : arg3.IsWhole)
    (x0 : Vec F S512x512 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the first pipeline on core `c`: the arrays as the region finds them; after the body each
    input's buffer at its block and the result's at the product of the two blocks; the scoped rest and the
    generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.R1Base.lean ====
/-
  The second kernel region (the pairwise pass over a 4 x 4 grid of row blocks), what its runs share: the body's
  two branch conditions in closed form over the grid (the accumulator is reset when the key-block index is 0, the
  result block is stored when it is 3), where the result window is idle, the staging and scratch memrefs, and the
  region's invariant with the scratch accumulator as an owned memref.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- The accumulator is reset: the key-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The result block is stored: the key-block coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the result block is not stored the result window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S128x64 .f32 := (Memref.whole cc1_stg2_0 : Memref sig .tc .vmem S128x64 .f32).view
abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S128x64 .f32 := Memref.whole cc1_scratch0
abbrev VS1_0 : View sig .tc .vmem S128x64 .f32 := scM1_0.view

/-- The region's untouched rest with the scratch accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Frame

end
-- ==== Proof.Kernel.R1RunA.lean ====
/-
  The body of the pairwise kernel run whole, in the case named below: from the two input blocks' staging memrefs at
  their contents, the result's staging memref and the scratch accumulator, to the same memrefs with the stores the
  case makes written — the stores found by running the body, not stated in advance.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import proofs.«163702_j1176821039198_1_alg».proof.Proof.Kernel.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Key block 0 (reset, no result store): the accumulator, at anything, ends with the stores of the reset and of the
    first accumulation written; the result's memref is handed back untouched. -/
noncomputable def kernelRun1_A (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x16x64 .f32) (x1 : Vec F S128x16x64 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.Kernel.R1RunB.lean ====
/-
  The body of the pairwise kernel run whole, in the case named below: from the two input blocks' staging memrefs at
  their contents, the result's staging memref and the scratch accumulator, to the same memrefs with the stores the
  case makes written — the stores found by running the body, not stated in advance.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import proofs.«163702_j1176821039198_1_alg».proof.Proof.Kernel.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Key blocks 1 and 2 (no reset, no result store): the accumulator, at the contents the point before left, ends with
    the store of the accumulation written; the result's memref is handed back untouched. -/
noncomputable def kernelRun1_B (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x16x64 .f32) (x1 : Vec F S128x16x64 .f32) (xs0 : Vec F S128x64 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.Kernel.R1RunC.lean ====
/-
  The body of the pairwise kernel run whole, in the case named below: from the two input blocks' staging memrefs at
  their contents, the result's staging memref and the scratch accumulator, to the same memrefs with the stores the
  case makes written — the stores found by running the body, not stated in advance.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import proofs.«163702_j1176821039198_1_alg».proof.Proof.Kernel.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Key block 3 (no reset, the result stored): the accumulator, at the contents the point before left, ends with the
    store of the accumulation written, and the result's memref, at anything, with the store of the result block. -/
noncomputable def kernelRun1_C (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.Kernel.R1Dat.lean ====
/-
  The second kernel region's proof data.  What the scratch accumulator and the result's staging buffer hold after
  each grid point, by recursion on the point (the accumulator restarts at every key block 0 and carries through key
  blocks 1, 2, 3; the result's buffer is stored at key block 3), the region's invariant carrying the accumulator at
  those contents, the body obligation by cases, and the invariant's two ends.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import proofs.«163702_j1176821039198_1_alg».proof.Proof.Kernel.R1RunA
import proofs.«163702_j1176821039198_1_alg».proof.Proof.Kernel.R1RunB
import proofs.«163702_j1176821039198_1_alg».proof.Proof.Kernel.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x16x64 .f32) (x1 : Vec F S128x16x64 .f32) (y : S128x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S128x64.size (by sl_kernel_rfl) y

/-- The accumulator after a point of key block 0: the case's stores read back. -/
def sout1_A (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x16x64 .f32) (x1 : Vec F S128x16x64 .f32) : Vec F S128x64 .f32 :=
  VS1_0.read (Elt F) (VS1_0.writes (Elt F) VS1_0.junk (kernelRun1_A c i arg2 harg2 arg3 harg3 arg4 harg4 arg5 harg5 hc0 hc1 x0 x1).1)

theorem scover1_B (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x16x64 .f32) (x1 : Vec F S128x16x64 .f32) (xs0 : Vec F S128x64 .f32) (y : S128x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S128x64.size (by sl_kernel_rfl) y

/-- The accumulator after a point of key block 1 or 2. -/
def sout1_B (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x16x64 .f32) (x1 : Vec F S128x16x64 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).1)

theorem cover1_C_2 (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- The result's staging buffer after a point of key block 3. -/
def out1_C_2 (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

theorem scover1_C (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- The accumulator after a point of key block 3. -/
def sout1_C (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

variable (V : (c : Dev nD) → (b : Ref sig .tc) → Buf (Elt F) ((c : Thread nD τ).loc b))

/-! ## What the result's buffer and the accumulator hold after each point -/

/-- A placeholder for the result's staging buffer at the points that store nothing into it (nothing reads it:
    the window is idle there and its block is not written back). -/
def idleOut : Vec F S128x64 .f32 := VO1_2.read (Elt F) VO1_2.junk

/-- After the body at position `n`: the result's staging buffer and the accumulator — the case the position is in,
    run on the point's two input blocks, the accumulator of key blocks 1, 2, 3 starting from what the point before left. -/
def outsAt1 (c : Dev nD) : (n : ℕ) → n < cfg1.N → Vec F S128x64 .f32 × Vec F S128x64 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the region's untouched rest (the accumulator at anything); afterwards the
    same with the accumulator at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of the second pipeline on core `c`: the arrays as the region finds them, the two input windows —
    both on the one array of projections — each holding one half of it; after the body each input's buffer at its
    block and the result's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Frame

end
-- ==== Proof.Kernel.R1Body.lean ====
/-
  The second kernel region's body obligation: at every grid point, from the region's invariant and the windows'
  current staging buffers at what the pipeline hands them, the body runs to the invariant at the next point and the
  buffers at the proof data's contents — by cases on the key-block index (0: reset; 1, 2: accumulate; 3: accumulate and
  store the result block).  And the invariant's two ends: it starts as the region's untouched rest and gives it back.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import proofs.«163702_j1176821039198_1_alg».proof.Proof.Kernel.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Hr0, Hr1, Hr2, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr0, Hr1, Hr2, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨Hr0, Hr1, Hr2, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨Hr0, Hr1, Hr2, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's untouched rest back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨Hr0, Hr1, Hr2, HS0⟩, Hg⟩
  isplitl [Hr0 Hr1 Hr2 HS0]
  · isplitl [Hr0]; · iexact Hr0
    isplitl [Hr1]; · iexact Hr1
    isplitl [Hr2]; · iexact Hr2
    iexists _; iexact HS0
  iexact Hg

end Cert.Kernel.Frame

end
-- ==== Proof.Kernel.Run.lean ====
/-
  The whole program as a run of five segments — a host stretch (the transpose and reshape of the second input), the
  matrix-product region, a host stretch (the reshape of the projections), the pairwise region, a host stretch (the
  concatenation) — with the TensorCore's buffer contents named at every boundary: a fold from the launch memory
  through the host operations and through what each region's write-backs leave.  Each region is entered from "every
  unscoped buffer at the boundary's contents" and left at the next boundary's; in the pairwise region the ONE array
  of projections is read through two input windows, so its buffer is dealt to them in two halves at the entry and
  joined again at the exit.  The run ends with every unscoped buffer at the last boundary's contents.
-/
import proofs.«163702_j1176821039198_1_alg».proof.Proof.Gen.Kernel.Launch
import proofs.«163702_j1176821039198_1_alg».proof.Proof.Gen.Kernel.Skeleton
import proofs.«163702_j1176821039198_1_alg».proof.Proof.Gen.Kernel.Points
import proofs.«163702_j1176821039198_1_alg».proof.Proof.Kernel.R0
import proofs.«163702_j1176821039198_1_alg».proof.Proof.Kernel.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the matrix-product region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the matrix-product region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the pairwise region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the pairwise region's exit: the result array at what the write-backs leave, every other buffer as entered. -/
def W4 (c : Dev nD) : Valuation τ sig (Elt F) :=
  Function.update (W3 m ρ c) (Proc.devRef .tc main_v4) ((dat1 (V3 m ρ) c).arrAt 2 cfg1.N)
theorem W4_main_v4 (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b
/-- After the last host stretch. -/
abbrev W5 : Dev nD → Valuation τ sig (Elt F) := fun c => StableHlo.after hostOps2 (W4 m ρ c)

/-! ### The inputs end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The one array of projections, dealt to the two input windows and joined again -/

/-- The two buffers behind the pairwise region's three windows: the projections (read through two windows) and the result. -/
theorem arrImage1 : Finset.univ.image (Pipeline.arrRef spec1) = {main_v3, main_v4} := by decide

/-- ENTRY: the projections' buffer, whole at the full share, is dealt in two halves to the two input windows; the
    result's buffer goes whole to the output window. -/
theorem hsplit1 (c : Dev nD) :
    (Pipeline.arrBufs spec1 c (V3 m ρ c) : sProp 𝕄) ⊢ (dat1 (V3 m ρ) c).arrays ((dat1 (V3 m ρ) c).arrAt · 0) := by
  unfold Pipeline.arrBufs Dat.arrays
  rw [arrImage1, BI.bigSep_insert (by decide), BI.bigSep_singleton, bigSep_W1]
  rw [(arr_whole1 0).set_eq_univ, (arr_whole1 2).set_eq_univ]
  show (iprop((((c : Thread nD τ).loc main_v3) ↦{fullShare} V3 m ρ c main_v3) ∗ (((c : Thread nD τ).loc main_v4) ↦{fullShare} V3 m ρ c main_v4)) : sProp 𝕄)
    ⊢ iprop((((c : Thread nD τ).loc main_v3) ↦{fullShare.left} V3 m ρ c main_v3) ∗ (((c : Thread nD τ).loc main_v3) ↦{fullShare.right} V3 m ρ c main_v3) ∗ (((c : Thread nD τ).loc main_v4) ↦{fullShare} V3 m ρ c main_v4))
  iintro ⟨H3, H4⟩
  ihave H3' := (pointsTo_share (PosShare.mem_left_op_right fullShare)).1 $$ H3
  icases H3' with ⟨Hl, Hr⟩
  isplitl [Hl]; · iexact Hl
  isplitl [Hr]; · iexact Hr
  iexact H4

/-- EXIT: the two halves of the projections' buffer (an input array is never written: both hold the entry contents)
    join to the whole buffer; the result's buffer comes back at what the write-backs left. -/
theorem hjoin1 (c : Dev nD) :
    (dat1 (V3 m ρ) c).arrays ((dat1 (V3 m ρ) c).arrAt · cfg1.N) ⊢ (Pipeline.arrBufs spec1 c (V4 m ρ c) : sProp 𝕄) := by
  unfold Pipeline.arrBufs Dat.arrays
  rw [arrImage1, BI.bigSep_insert (by decide), BI.bigSep_singleton, bigSep_W1]
  rw [(arr_whole1 0).set_eq_univ, (arr_whole1 2).set_eq_univ]
  have e0 : (dat1 (V3 m ρ) c).arrAt 0 cfg1.N = V3 m ρ c main_v3 := ((dat1 (V3 m ρ) c).arrAt_in 0 rfl _).trans (A_eq1 (V3 m ρ) c 0)
  have e1 : (dat1 (V3 m ρ) c).arrAt 1 cfg1.N = V3 m ρ c main_v3 := ((dat1 (V3 m ρ) c).arrAt_in 1 rfl _).trans (A_eq1 (V3 m ρ) c 1)
  have e3 : V4 m ρ c main_v3 = V3 m ρ c main_v3 := W4_of_ne m ρ c main_v3 (by decide)
  have e4 : V4 m ρ c main_v4 = (dat1 (V3 m ρ) c).arrAt 2 cfg1.N := W4_main_v4 m ρ c
  show (iprop((((c : Thread nD τ).loc main_v3) ↦{fullShare.left} (dat1 (V3 m ρ) c).arrAt 0 cfg1.N) ∗ (((c : Thread nD τ).loc main_v3) ↦{fullShare.right} (dat1 (V3 m ρ) c).arrAt 1 cfg1.N) ∗ (((c : Thread nD τ).loc main_v4) ↦{fullShare} (dat1 (V3 m ρ) c).arrAt 2 cfg1.N)) : sProp 𝕄)
    ⊢ iprop((((c : Thread nD τ).loc main_v3) ↦{fullShare} V4 m ρ c main_v3) ∗ (((c : Thread nD τ).loc main_v4) ↦{fullShare} V4 m ρ c main_v4))
  rw [e0, e1, e3, e4]
  iintro ⟨Hl, Hr, H4⟩
  isplitl [Hl Hr]
  · iapply (pointsTo_share (PosShare.mem_left_op_right fullShare)).2
    isplitl [Hl]; · iexact Hl
    iexact Hr
  iexact H4

/-! ## The regions as segments -/

set_option backward.isDefEq.respectTransparency.types false in
/-- The matrix-product region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsp := Pipeline.unscopedBufs_split₀ (Ix := Unit) (Name := ℕ) (U := UR sig nD τ) (Lvl := ℕ) (cfgs) (1 : Fin 2) winFacts₀1.arr_unscoped c (V3 m ρ c)
    rw [Pipeline.unscopedBufs_held] at hsp
    have hsp' : (StableHlo.held (c : Thread nD τ) (Pipeline.ucRefs τ sig) (W3 m ρ c) : sProp 𝕄)
        ⊢ iprop(Pipeline.arrBufs spec1 c (V3 m ρ c) ∗ Pipeline.unscopedRest spec1 c (V3 m ρ c)) := Entails.of_eq hsp
    iintro ⟨⟨Hub, Hp, HO⟩, -, -⟩
    ihave H := hsp' $$ Hub
    icases H with ⟨Ha, Hrest⟩
    imodintro
    isplitl [Ha]; · iapply (hsplit1 m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (cfgs) (1 : Fin 2) winFacts₀1.arr_unscoped c (V4 m ρ c)
    rw [Pipeline.unscopedBufs_held] at hsp
    have hrest : (Pipeline.unscopedRest (Ix := Unit) (Name := ℕ) (U := UR sig nD τ) (Lvl := ℕ) spec1 c (V3 m ρ c) : sProp 𝕄)
        = Pipeline.unscopedRest spec1 c (V4 m ρ c) := by
      unfold Pipeline.unscopedRest
      refine BI.bigSep_congr fun b hb => ?_
      rw [show V4 m ρ c b = V3 m ρ c b from W4_of_ne m ρ c b fun e =>
        (Finset.mem_sdiff.mp hb).2 (Finset.mem_image.mpr ⟨2, Finset.mem_univ _, e.symm⟩)]
    have hsp' : (iprop(Pipeline.arrBufs spec1 c (V4 m ρ c) ∗ Pipeline.unscopedRest spec1 c (V4 m ρ c)) : sProp 𝕄)
        ⊢ StableHlo.held (c : Thread nD τ) (Pipeline.ucRefs τ sig) (W4 m ρ c) := Entails.of_eq hsp.symm
    have hrest' : (Pipeline.unscopedRest (Ix := Unit) (Name := ℕ) (U := UR sig nD τ) (Lvl := ℕ) spec1 c (V3 m ρ c) : sProp 𝕄)
        ⊢ Pipeline.unscopedRest spec1 c (V4 m ρ c) := Entails.of_eq hrest
    iintro ⟨Ha, HO, HY, Hrest⟩
    imodintro
    isplitl [Ha Hrest]
    · iapply hsp'
      isplitl [Ha]; · iapply (hjoin1 m ρ c); iexact Ha
      iapply hrest'; iexact Hrest
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds each unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ (∃ r, prngReg c r) ∗ ∃ W, owes (c : Thread nD τ) (0 : CellTallies nD τ sig Unit) W) : sProp 𝕄)
        ⊢ iprop((StableHlo.held (c : Thread nD τ) (Pipeline.ucRefs τ sig) (W5 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: both inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c), (h c _ (mem_uc main_arg1 (by decide))).trans (W5_main_arg1 m ρ c)⟩)
    (run_all m ρ)

end Cert.Kernel.Frame

end
-- ==== Proof.KernelIdeal.R0.lean ====
/-
  The first kernel region: one grid point, the whole of both operands staged, the body a single matrix product
  stored whole into the result's staging buffer.  At a parameter `V` (the TensorCore's buffer contents when the
  region is entered): each window's block, what the body leaves in the result's buffer as a function of the two
  loaded blocks, the body's triple, the proof data and the body obligation.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev r0_0 : Rect S512x512 := Rect.unit (s := S512x512) ![0, 0] S512x512.size inb_S512x512_S512x512_0_0
abbrev r0_1 : Rect S512x1024 := Rect.unit (s := S512x1024) ![0, 0] S512x1024.size inb_S512x1024_S512x1024_0_0

/-- The result's staging buffer after the body: its one store, the product of the two loaded blocks. -/
def out0_2 (x0 : Vec F S512x512 .f32) (x1 : Vec F S512x1024 .f32) : Vec F S512x1024 .f32 :=
  View.canon [⟨r0_1, k0_pay1 (View.ld x0 r0_0) (View.ld x1 r0_1)⟩]

/-- The one store covers the buffer. -/
theorem cover0_2 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-! ## The body's triple -/

set_option maxHeartbeats 1000000 in
/-- On whole staging memrefs, the two inputs' at contents `x0`, `x1` and the result's at anything, the body runs to
    the continuation holding the inputs' as they were and the result's at `out0_2 x0 x1`. -/
theorem sound_kernel0 (c : Dev nD) (E : Set ℕ) (i : grid0.Coords) (arg1 : Memref sig .tc .vmem S512x512 .f32) (harg1 : arg1.IsWhole) (arg2 : Memref sig .tc .vmem S512x1024 .f32) (harg2 : arg2.IsWhole) (arg3 : Memref sig .tc .vmem S512x1024 .f32) (harg3 : arg3.IsWhole)
    (x0 : Vec F S512x512 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the first pipeline on core `c`: the arrays as the region finds them; after the body each
    input's buffer at its block and the result's at the product of the two blocks; the scoped rest and the
    generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.R1Base.lean ====
/-
  The second kernel region (the pairwise pass over a 4 x 4 grid of row blocks), what its runs share: the body's
  two branch conditions in closed form over the grid (the accumulator is reset when the key-block index is 0, the
  result block is stored when it is 3), where the result window is idle, the staging and scratch memrefs, and the
  region's invariant with the scratch accumulator as an owned memref.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- The accumulator is reset: the key-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The result block is stored: the key-block coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the result block is not stored the result window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S128x64 .f32 := (Memref.whole cc1_stg2_0 : Memref sig .tc .vmem S128x64 .f32).view
abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S128x64 .f32 := Memref.whole cc1_scratch0
abbrev VS1_0 : View sig .tc .vmem S128x64 .f32 := scM1_0.view

/-- The region's untouched rest with the scratch accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Frame

end
-- ==== Proof.KernelIdeal.R1RunA.lean ====
/-
  The body of the pairwise kernel run whole, in the case named below: from the two input blocks' staging memrefs at
  their contents, the result's staging memref and the scratch accumulator, to the same memrefs with the stores the
  case makes written — the stores found by running the body, not stated in advance.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import proofs.«163702_j1176821039198_1_alg».proof.Proof.KernelIdeal.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Key block 0 (reset, no result store): the accumulator, at anything, ends with the stores of the reset and of the
    first accumulation written; the result's memref is handed back untouched. -/
noncomputable def kernelRun1_A (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x16x64 .f32) (x1 : Vec F S128x16x64 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.KernelIdeal.R1RunB.lean ====
/-
  The body of the pairwise kernel run whole, in the case named below: from the two input blocks' staging memrefs at
  their contents, the result's staging memref and the scratch accumulator, to the same memrefs with the stores the
  case makes written — the stores found by running the body, not stated in advance.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import proofs.«163702_j1176821039198_1_alg».proof.Proof.KernelIdeal.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Key blocks 1 and 2 (no reset, no result store): the accumulator, at the contents the point before left, ends with
    the store of the accumulation written; the result's memref is handed back untouched. -/
noncomputable def kernelRun1_B (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x16x64 .f32) (x1 : Vec F S128x16x64 .f32) (xs0 : Vec F S128x64 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.KernelIdeal.R1RunC.lean ====
/-
  The body of the pairwise kernel run whole, in the case named below: from the two input blocks' staging memrefs at
  their contents, the result's staging memref and the scratch accumulator, to the same memrefs with the stores the
  case makes written — the stores found by running the body, not stated in advance.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import proofs.«163702_j1176821039198_1_alg».proof.Proof.KernelIdeal.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Key block 3 (no reset, the result stored): the accumulator, at the contents the point before left, ends with the
    store of the accumulation written, and the result's memref, at anything, with the store of the result block. -/
noncomputable def kernelRun1_C (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KernelIdeal.R1Dat.lean ====
/-
  The second kernel region's proof data.  What the scratch accumulator and the result's staging buffer hold after
  each grid point, by recursion on the point (the accumulator restarts at every key block 0 and carries through key
  blocks 1, 2, 3; the result's buffer is stored at key block 3), the region's invariant carrying the accumulator at
  those contents, the body obligation by cases, and the invariant's two ends.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import proofs.«163702_j1176821039198_1_alg».proof.Proof.KernelIdeal.R1RunA
import proofs.«163702_j1176821039198_1_alg».proof.Proof.KernelIdeal.R1RunB
import proofs.«163702_j1176821039198_1_alg».proof.Proof.KernelIdeal.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x16x64 .f32) (x1 : Vec F S128x16x64 .f32) (y : S128x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S128x64.size (by sl_kernel_rfl) y

/-- The accumulator after a point of key block 0: the case's stores read back. -/
def sout1_A (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x16x64 .f32) (x1 : Vec F S128x16x64 .f32) : Vec F S128x64 .f32 :=
  VS1_0.read (Elt F) (VS1_0.writes (Elt F) VS1_0.junk (kernelRun1_A c i arg2 harg2 arg3 harg3 arg4 harg4 arg5 harg5 hc0 hc1 x0 x1).1)

theorem scover1_B (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x16x64 .f32) (x1 : Vec F S128x16x64 .f32) (xs0 : Vec F S128x64 .f32) (y : S128x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S128x64.size (by sl_kernel_rfl) y

/-- The accumulator after a point of key block 1 or 2. -/
def sout1_B (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x16x64 .f32) (x1 : Vec F S128x16x64 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).1)

theorem cover1_C_2 (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- The result's staging buffer after a point of key block 3. -/
def out1_C_2 (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

theorem scover1_C (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- The accumulator after a point of key block 3. -/
def sout1_C (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

variable (V : (c : Dev nD) → (b : Ref sig .tc) → Buf (Elt F) ((c : Thread nD τ).loc b))

/-! ## What the result's buffer and the accumulator hold after each point -/

/-- A placeholder for the result's staging buffer at the points that store nothing into it (nothing reads it:
    the window is idle there and its block is not written back). -/
def idleOut : Vec F S128x64 .f32 := VO1_2.read (Elt F) VO1_2.junk

/-- After the body at position `n`: the result's staging buffer and the accumulator — the case the position is in,
    run on the point's two input blocks, the accumulator of key blocks 1, 2, 3 starting from what the point before left. -/
def outsAt1 (c : Dev nD) : (n : ℕ) → n < cfg1.N → Vec F S128x64 .f32 × Vec F S128x64 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the region's untouched rest (the accumulator at anything); afterwards the
    same with the accumulator at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of the second pipeline on core `c`: the arrays as the region finds them, the two input windows —
    both on the one array of projections — each holding one half of it; after the body each input's buffer at its
    block and the result's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Frame

end
-- ==== Proof.KernelIdeal.R1Body.lean ====
/-
  The second kernel region's body obligation: at every grid point, from the region's invariant and the windows'
  current staging buffers at what the pipeline hands them, the body runs to the invariant at the next point and the
  buffers at the proof data's contents — by cases on the key-block index (0: reset; 1, 2: accumulate; 3: accumulate and
  store the result block).  And the invariant's two ends: it starts as the region's untouched rest and gives it back.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import proofs.«163702_j1176821039198_1_alg».proof.Proof.KernelIdeal.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Hr0, Hr1, Hr2, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr0, Hr1, Hr2, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨Hr0, Hr1, Hr2, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨Hr0, Hr1, Hr2, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's untouched rest back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨Hr0, Hr1, Hr2, HS0⟩, Hg⟩
  isplitl [Hr0 Hr1 Hr2 HS0]
  · isplitl [Hr0]; · iexact Hr0
    isplitl [Hr1]; · iexact Hr1
    isplitl [Hr2]; · iexact Hr2
    iexists _; iexact HS0
  iexact Hg

end Cert.KernelIdeal.Frame

end
-- ==== Proof.KernelIdeal.Run.lean ====
/-
  The whole program as a run of five segments — a host stretch (the transpose and reshape of the second input), the
  matrix-product region, a host stretch (the reshape of the projections), the pairwise region, a host stretch (the
  concatenation) — with the TensorCore's buffer contents named at every boundary: a fold from the launch memory
  through the host operations and through what each region's write-backs leave.  Each region is entered from "every
  unscoped buffer at the boundary's contents" and left at the next boundary's; in the pairwise region the ONE array
  of projections is read through two input windows, so its buffer is dealt to them in two halves at the entry and
  joined again at the exit.  The run ends with every unscoped buffer at the last boundary's contents.
-/
import proofs.«163702_j1176821039198_1_alg».proof.Proof.Gen.KernelIdeal.Launch
import proofs.«163702_j1176821039198_1_alg».proof.Proof.Gen.KernelIdeal.Skeleton
import proofs.«163702_j1176821039198_1_alg».proof.Proof.Gen.KernelIdeal.Points
import proofs.«163702_j1176821039198_1_alg».proof.Proof.KernelIdeal.R0
import proofs.«163702_j1176821039198_1_alg».proof.Proof.KernelIdeal.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the matrix-product region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the matrix-product region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the pairwise region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the pairwise region's exit: the result array at what the write-backs leave, every other buffer as entered. -/
def W4 (c : Dev nD) : Valuation τ sig (Elt F) :=
  Function.update (W3 m ρ c) (Proc.devRef .tc main_v4) ((dat1 (V3 m ρ) c).arrAt 2 cfg1.N)
theorem W4_main_v4 (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b
/-- After the last host stretch. -/
abbrev W5 : Dev nD → Valuation τ sig (Elt F) := fun c => StableHlo.after hostOps2 (W4 m ρ c)

/-! ### The inputs end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The one array of projections, dealt to the two input windows and joined again -/

/-- The two buffers behind the pairwise region's three windows: the projections (read through two windows) and the result. -/
theorem arrImage1 : Finset.univ.image (Pipeline.arrRef spec1) = {main_v3, main_v4} := by decide

/-- ENTRY: the projections' buffer, whole at the full share, is dealt in two halves to the two input windows; the
    result's buffer goes whole to the output window. -/
theorem hsplit1 (c : Dev nD) :
    (Pipeline.arrBufs spec1 c (V3 m ρ c) : sProp 𝕄) ⊢ (dat1 (V3 m ρ) c).arrays ((dat1 (V3 m ρ) c).arrAt · 0) := by
  unfold Pipeline.arrBufs Dat.arrays
  rw [arrImage1, BI.bigSep_insert (by decide), BI.bigSep_singleton, bigSep_W1]
  rw [(arr_whole1 0).set_eq_univ, (arr_whole1 2).set_eq_univ]
  show (iprop((((c : Thread nD τ).loc main_v3) ↦{fullShare} V3 m ρ c main_v3) ∗ (((c : Thread nD τ).loc main_v4) ↦{fullShare} V3 m ρ c main_v4)) : sProp 𝕄)
    ⊢ iprop((((c : Thread nD τ).loc main_v3) ↦{fullShare.left} V3 m ρ c main_v3) ∗ (((c : Thread nD τ).loc main_v3) ↦{fullShare.right} V3 m ρ c main_v3) ∗ (((c : Thread nD τ).loc main_v4) ↦{fullShare} V3 m ρ c main_v4))
  iintro ⟨H3, H4⟩
  ihave H3' := (pointsTo_share (PosShare.mem_left_op_right fullShare)).1 $$ H3
  icases H3' with ⟨Hl, Hr⟩
  isplitl [Hl]; · iexact Hl
  isplitl [Hr]; · iexact Hr
  iexact H4

/-- EXIT: the two halves of the projections' buffer (an input array is never written: both hold the entry contents)
    join to the whole buffer; the result's buffer comes back at what the write-backs left. -/
theorem hjoin1 (c : Dev nD) :
    (dat1 (V3 m ρ) c).arrays ((dat1 (V3 m ρ) c).arrAt · cfg1.N) ⊢ (Pipeline.arrBufs spec1 c (V4 m ρ c) : sProp 𝕄) := by
  unfold Pipeline.arrBufs Dat.arrays
  rw [arrImage1, BI.bigSep_insert (by decide), BI.bigSep_singleton, bigSep_W1]
  rw [(arr_whole1 0).set_eq_univ, (arr_whole1 2).set_eq_univ]
  have e0 : (dat1 (V3 m ρ) c).arrAt 0 cfg1.N = V3 m ρ c main_v3 := ((dat1 (V3 m ρ) c).arrAt_in 0 rfl _).trans (A_eq1 (V3 m ρ) c 0)
  have e1 : (dat1 (V3 m ρ) c).arrAt 1 cfg1.N = V3 m ρ c main_v3 := ((dat1 (V3 m ρ) c).arrAt_in 1 rfl _).trans (A_eq1 (V3 m ρ) c 1)
  have e3 : V4 m ρ c main_v3 = V3 m ρ c main_v3 := W4_of_ne m ρ c main_v3 (by decide)
  have e4 : V4 m ρ c main_v4 = (dat1 (V3 m ρ) c).arrAt 2 cfg1.N := W4_main_v4 m ρ c
  show (iprop((((c : Thread nD τ).loc main_v3) ↦{fullShare.left} (dat1 (V3 m ρ) c).arrAt 0 cfg1.N) ∗ (((c : Thread nD τ).loc main_v3) ↦{fullShare.right} (dat1 (V3 m ρ) c).arrAt 1 cfg1.N) ∗ (((c : Thread nD τ).loc main_v4) ↦{fullShare} (dat1 (V3 m ρ) c).arrAt 2 cfg1.N)) : sProp 𝕄)
    ⊢ iprop((((c : Thread nD τ).loc main_v3) ↦{fullShare} V4 m ρ c main_v3) ∗ (((c : Thread nD τ).loc main_v4) ↦{fullShare} V4 m ρ c main_v4))
  rw [e0, e1, e3, e4]
  iintro ⟨Hl, Hr, H4⟩
  isplitl [Hl Hr]
  · iapply (pointsTo_share (PosShare.mem_left_op_right fullShare)).2
    isplitl [Hl]; · iexact Hl
    iexact Hr
  iexact H4

/-! ## The regions as segments -/

set_option backward.isDefEq.respectTransparency.types false in
/-- The matrix-product region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsp := Pipeline.unscopedBufs_split₀ (Ix := Unit) (Name := ℕ) (U := UR sig nD τ) (Lvl := ℕ) (cfgs) (1 : Fin 2) winFacts₀1.arr_unscoped c (V3 m ρ c)
    rw [Pipeline.unscopedBufs_held] at hsp
    have hsp' : (StableHlo.held (c : Thread nD τ) (Pipeline.ucRefs τ sig) (W3 m ρ c) : sProp 𝕄)
        ⊢ iprop(Pipeline.arrBufs spec1 c (V3 m ρ c) ∗ Pipeline.unscopedRest spec1 c (V3 m ρ c)) := Entails.of_eq hsp
    iintro ⟨⟨Hub, Hp, HO⟩, -, -⟩
    ihave H := hsp' $$ Hub
    icases H with ⟨Ha, Hrest⟩
    imodintro
    isplitl [Ha]; · iapply (hsplit1 m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (cfgs) (1 : Fin 2) winFacts₀1.arr_unscoped c (V4 m ρ c)
    rw [Pipeline.unscopedBufs_held] at hsp
    have hrest : (Pipeline.unscopedRest (Ix := Unit) (Name := ℕ) (U := UR sig nD τ) (Lvl := ℕ) spec1 c (V3 m ρ c) : sProp 𝕄)
        = Pipeline.unscopedRest spec1 c (V4 m ρ c) := by
      unfold Pipeline.unscopedRest
      refine BI.bigSep_congr fun b hb => ?_
      rw [show V4 m ρ c b = V3 m ρ c b from W4_of_ne m ρ c b fun e =>
        (Finset.mem_sdiff.mp hb).2 (Finset.mem_image.mpr ⟨2, Finset.mem_univ _, e.symm⟩)]
    have hsp' : (iprop(Pipeline.arrBufs spec1 c (V4 m ρ c) ∗ Pipeline.unscopedRest spec1 c (V4 m ρ c)) : sProp 𝕄)
        ⊢ StableHlo.held (c : Thread nD τ) (Pipeline.ucRefs τ sig) (W4 m ρ c) := Entails.of_eq hsp.symm
    have hrest' : (Pipeline.unscopedRest (Ix := Unit) (Name := ℕ) (U := UR sig nD τ) (Lvl := ℕ) spec1 c (V3 m ρ c) : sProp 𝕄)
        ⊢ Pipeline.unscopedRest spec1 c (V4 m ρ c) := Entails.of_eq hrest
    iintro ⟨Ha, HO, HY, Hrest⟩
    imodintro
    isplitl [Ha Hrest]
    · iapply hsp'
      isplitl [Ha]; · iapply (hjoin1 m ρ c); iexact Ha
      iapply hrest'; iexact Hrest
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds each unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ (∃ r, prngReg c r) ∗ ∃ W, owes (c : Thread nD τ) (0 : CellTallies nD τ sig Unit) W) : sProp 𝕄)
        ⊢ iprop((StableHlo.held (c : Thread nD τ) (Pipeline.ucRefs τ sig) (W5 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: both inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c), (h c _ (mem_uc main_arg1 (by decide))).trans (W5_main_arg1 m ρ c)⟩)
    (run_all m ρ)

end Cert.KernelIdeal.Frame

end
-- ==== Proof.Value.MatmulArray.lean ====
/-
  The first kernel region's result array after its one grid point: the body's matrix product of the two operand
  arrays as the region finds them.  The three windows each stage their whole array (block index zero on every axis),
  so a block read is the array itself and the one write-back covers the result array.
-/
import proofs.«163702_j1176821039198_1_alg».proof.Proof.KernelIdeal.R0
import Idealize.ShloMosaic.Lib.Pipeline.Value
import Idealize.ShloMosaic.Lib.ValueIdx

set_option maxRecDepth 16384

noncomputable section

namespace Cert.KernelValue

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- Every window's block index is zero on both axes at the one grid point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- A block's element sits at block index × block size + its coordinate inside the block: here at the coordinate itself. -/
theorem emb0_0 (t : Fin cfg0.N) (j : S512x512.Idx) : ((cfg0.win 0).blk t).view.emb j = j := by
  obtain ⟨e0, e1, -⟩ := idx_facts0 t
  funext a; apply Fin.ext
  match a with
  | ⟨0, _⟩ => show win0_0.index t (0 : Fin 2) * 512 + 1 * (j 0).val = (j 0).val; omega
  | ⟨1, _⟩ => show win0_0.index t (1 : Fin 2) * 512 + 1 * (j 1).val = (j 1).val; omega

theorem emb0_1 (t : Fin cfg0.N) (j : S512x1024.Idx) : ((cfg0.win 1).blk t).view.emb j = j := by
  obtain ⟨-, -, e0, e1, -⟩ := idx_facts0 t
  funext a; apply Fin.ext
  match a with
  | ⟨0, _⟩ => show win0_1.index t (0 : Fin 2) * 512 + 1 * (j 0).val = (j 0).val; omega
  | ⟨1, _⟩ => show win0_1.index t (1 : Fin 2) * 1024 + 1 * (j 1).val = (j 1).val; omega

theorem emb0_2 (t : Fin cfg0.N) (j : S512x1024.Idx) : ((cfg0.win 2).blk t).view.emb j = j := by
  obtain ⟨-, -, -, -, e0, e1⟩ := idx_facts0 t
  funext a; apply Fin.ext
  match a with
  | ⟨0, _⟩ => show win0_2.index t (0 : Fin 2) * 512 + 1 * (j 0).val = (j 0).val; omega
  | ⟨1, _⟩ => show win0_2.index t (1 : Fin 2) * 1024 + 1 * (j 1).val = (j 1).val; omega

/-- The two operand windows' blocks are their whole arrays. -/
theorem iblk0_0_eq (c : Dev nD) (t : Fin cfg0.N) : iblk0 V c 0 t = V c main_arg0 := by
  funext j
  show V c main_arg0 (((cfg0.win 0).blk t).view.emb j) = V c main_arg0 j
  rw [emb0_0]

theorem iblk0_1_eq (c : Dev nD) (t : Fin cfg0.N) : iblk0 V c 1 t = V c main_v1 := by
  funext j
  show V c main_v1 (((cfg0.win 1).blk t).view.emb j) = V c main_v1 j
  rw [emb0_1]

/-- What the one point writes back is the (whole) block of the product of the two operand arrays. -/
theorem flushed0_eq (c : Dev nD) (t : Fin cfg0.N) :
    (dat0 V c).flushed 2 t = ((cfg0.win 2).blk t).view.read (Elt F) (k0_pay1 (V c main_arg0) (V c main_v1)) := by
  show (cfg0.win 2).cut (grid0.coords t) ((dat0 V c).after 2 t) = _
  rw [after0_2]
  unfold out0_2
  rw [View.canon_unit_zero zero2]
  simp only [View.ld_unit_zero (S := S512x512) zero2, View.ld_unit_zero (S := S512x1024) zero2]
  rw [iblk0_0_eq, iblk0_1_eq]
  funext j
  show k0_pay1 (V c main_arg0) (V c main_v1) j = k0_pay1 (V c main_arg0) (V c main_v1) (((cfg0.win 2).blk t).view.emb j)
  rw [emb0_2]

theorem mem_blk0 (t : Fin cfg0.N) (i : S512x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v2).slice (win0_2.rect t)).set ↔ _
  rw [View.set_slice_whole, Rect.mem_set_unit]
  exact Iff.rfl

/-- THE RESULT ARRAY after the region: the product of the two operand arrays. -/
theorem matmul_array (c : Dev nD) : (dat0 V c).arrAt 2 cfg0.N = k0_pay1 (V c main_arg0) (V c main_v1) :=
  (dat0 V c).arrAt_eq_of_cover 2 _ (fun t _ => flushed0_eq V c t) fun i => ⟨t0_0, flush0_2 t0_0, by
    rw [mem_blk0]
    obtain ⟨-, -, -, -, e0, e1⟩ := idx_facts0 t0_0
    intro a
    match a with
    | ⟨0, _⟩ => show win0_2.index t0_0 (0 : Fin 2) * 512 ≤ (i 0).val ∧ (i 0).val < win0_2.index t0_0 (0 : Fin 2) * 512 + 512; have h0 : (i 0).val < 512 := (i 0).isLt; omega
    | ⟨1, _⟩ => show win0_2.index t0_0 (1 : Fin 2) * 1024 ≤ (i 1).val ∧ (i 1).val < win0_2.index t0_0 (1 : Fin 2) * 1024 + 1024; have h1 : (i 1).val < 1024 := (i 1).isLt; omega⟩

end Cert.KernelValue

end
-- ==== Proof.KernelIdeal.R1Pieces.lean ====
/-
  The second kernel region: the values each case of the body leaves in the scratch accumulator and in the result's
  staging buffer, read off the stores the runs found, as the program's own arithmetic applied to the two blocks
  loaded and to the accumulator's contents before the point.
-/
import proofs.«163702_j1176821039198_1_alg».proof.Proof.KernelIdeal.R1Dat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One accumulation step

Every grid point of the pairwise pass loads its block of query rows `x0` and its block of key rows `x1`
(128 rows of 16 x 64 projections each), adds up over the 16 entries the absolute differences of every query row
against every key row, takes `exp` of the negated sums, sums over the 128 key rows and adds the outcome to the
accumulator.  `stepF x0 x1 acc` is that new accumulator as the program computes it. -/

/-- The accumulator after one point: what the point's store writes, as a function of the two blocks loaded and of
    the accumulator's contents before. -/
def stepF (x0 x1 : Vec F S128x16x64 .f32) (acc : Vec F S128x64 .f32) : FVec F S128x64 .f32 :=
  k1_pay1 (k1_pay4 x0) (k1_pay5 x1)
    (k1_pay11 (k1_pay4 x0) (k1_pay5 x1)
      (k1_pay8 (k1_pay4 x0) (k1_pay5 x1) (k1_pay6 x0 x1) (k1_pay7 x0 x1))
      (k1_pay9 (k1_pay4 x0)) (k1_pay10 (k1_pay5 x1)))
    (k1_pay12 (k1_pay4 x0) (k1_pay5 x1)) acc

/-- Zero offsets of a rank-2 buffer, as the stores and loads spell them. -/
theorem zeroOff2 : (![0, 0] : Fin 2 → Nat) = fun _ => 0 := funext fun a => by fin_cases a <;> rfl
/-- Zero offsets of a rank-3 buffer. -/
theorem zeroOff3 : (![0, 0, 0] : Fin 3 → Nat) = fun _ => 0 := funext fun a => by fin_cases a <;> rfl

/-- Key block 0: the accumulator is first set to zeros, read back, and one step is added to it. -/
theorem sout1_A_eq (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x16x64 .f32) (x1 : Vec F S128x16x64 .f32) :
    sout1_A c i arg2 harg2 arg3 harg3 arg4 harg4 arg5 harg5 hc0 hc1 x0 x1 = stepF x0 x1 (k1_pay3 (F := F)) := by
  unfold sout1_A
  rw [View.read_writes_eq_canon _ _ _ (scover1_A c i arg2 harg2 arg3 harg3 arg4 harg4 arg5 harg5 hc0 hc1 x0 x1)]
  unfold kernelRun1_A
  dsimp only
  try sl_unfold_words
  rw [View.canon_cons_unit_zero zeroOff2, View.readCov_unit_zero (S := S128x64) _ zeroOff2]
  simp only [View.readAt_eq_ld, harg2.read_unread, harg3.read_unread, View.ld_unit_zero (S := S128x16x64) zeroOff3]
  rfl

/-- Key blocks 1 and 2: one step is added to what the accumulator held. -/
theorem sout1_B_eq (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x16x64 .f32) (x1 : Vec F S128x16x64 .f32) (xs0 : Vec F S128x64 .f32) :
    sout1_B c i arg2 harg2 arg3 harg3 arg4 harg4 arg5 harg5 hc0 hc1 x0 x1 xs0 = stepF x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  try sl_unfold_words
  rw [View.canon_unit_zero zeroOff2]
  simp only [View.readAt_eq_ld, harg2.read_unread, harg3.read_unread, harg5.read_unread,
    View.ld_unit_zero (S := S128x16x64) zeroOff3, View.ld_unit_zero (S := S128x64) zeroOff2]
  rfl

/-- Key block 3, the accumulator: one step is added to what it held. -/
theorem sout1_C_eq (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) :
    sout1_C c i arg2 harg2 arg3 harg3 arg4 harg4 arg5 harg5 hc0 hc1 x0 x1 xs0 = stepF x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  try sl_unfold_words
  rw [View.canon_unit_zero zeroOff2]
  simp only [View.readAt_eq_ld, harg2.read_unread, harg3.read_unread, harg5.read_unread,
    View.ld_unit_zero (S := S128x16x64) zeroOff3, View.ld_unit_zero (S := S128x64) zeroOff2]
  rfl

/-- Key block 3, the result's buffer: the new accumulator read back, less the constant one. -/
theorem out1_C_2_eq (c : Dev nD) (i : grid1.Coords) (arg2 : Memref sig .tc .vmem S128x16x64 .f32) (harg2 : arg2.IsWhole) (arg3 : Memref sig .tc .vmem S128x16x64 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x16x64 .f32) (x1 : Vec F S128x16x64 .f32) (xs0 : Vec F S128x64 .f32) :
    out1_C_2 c i arg2 harg2 arg3 harg3 arg4 harg4 arg5 harg5 hc0 hc1 x0 x1 xs0 = k1_pay2 (stepF x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero zeroOff2, View.readCov_unit_zero (S := S128x64) _ zeroOff2]
  simp only [View.readAt_eq_ld, harg2.read_unread, harg3.read_unread, harg5.read_unread,
    View.ld_unit_zero (S := S128x16x64) zeroOff3, View.ld_unit_zero (S := S128x64) zeroOff2]
  rfl

end Cert.KernelIdeal.Frame

end
-- ==== Proof.Value.PairwiseArray.lean ====
/-
  The pairwise pass's result array as one function of the array of projections.

  The pass runs over a 4 x 4 grid: point t has query block t / 4 and key block t % 4.  Both input windows read the
  512 x 16 x 64 array of projections: the first hands the body rows 128 (t / 4) ... of it, the second rows
  128 (t % 4) ....  The accumulator restarts at key block 0 and after key block j holds the accumulation steps of key
  blocks 0 ... j in that order; at key block 3 the result block — the accumulator less one — is written back as rows
  128 (t / 4) ... of the result.  Those four blocks tile the 512 rows.
-/
import proofs.«163702_j1176821039198_1_alg».proof.Proof.KernelIdeal.R1Pieces
import Idealize.ShloMosaic.Lib.Pipeline.Value
import Idealize.ShloMosaic.Lib.ValueIdx

set_option maxRecDepth 16384

noncomputable section

namespace Cert.KernelValue

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable {F : FTy → Type} [FloatOps F]

/-! ## The blocks, the accumulator and the result as functions of the projections -/

/-- The pairwise pass's grid has 16 points. -/
theorem lt16 (t : Fin cfg1.N) : t.val < 16 := lt_of_lt_of_eq t.isLt N_1

/-- The query block of grid position `n`. -/
def qBlk (n : ℕ) : Fin 4 := ⟨n / 4 % 4, Nat.mod_lt _ (by decide)⟩
/-- The key block of grid position `n`. -/
def kBlk (n : ℕ) : Fin 4 := ⟨n % 4, Nat.mod_lt _ (by decide)⟩

theorem qBlk_val (n : ℕ) : (qBlk n).val = n / 4 % 4 := rfl
theorem kBlk_val (n : ℕ) : (kBlk n).val = n % 4 := rfl

/-- Row block `i` of the projections: rows `128 i ... 128 i + 127`. -/
def rowsBlk (M3 : S512x16x64.Idx → Elt F .f32) (i : Fin 4) : Vec F S128x16x64 .f32 :=
  fun y => M3 (ix3 (n0 := 512) (n1 := 16) (n2 := 64)
    ⟨128 * i.val + (y 0).val, by have h : (y 0).val < 128 := (y 0).isLt; have := i.isLt; omega⟩
    ⟨(y 1).val, (y 1).isLt⟩ ⟨(y 2).val, (y 2).isLt⟩)

/-- The accumulator of query block `i` after key blocks `0 ... j`: it starts from the zero block at key block 0 and
    takes one step per key block. -/
def accUpTo (M3 : S512x16x64.Idx → Elt F .f32) (i : Fin 4) : ℕ → Vec F S128x64 .f32
  | 0 => stepF (rowsBlk M3 i) (rowsBlk M3 (kBlk 0)) (k1_pay3 (F := F))
  | j + 1 => stepF (rowsBlk M3 i) (rowsBlk M3 (kBlk (j + 1))) (accUpTo M3 i j)

/-- The result array: row `b` lies in query block `b / 128` at local row `b % 128`, and holds that block's
    accumulator after all four key blocks, less the constant one. -/
def pairOut (M3 : S512x16x64.Idx → Elt F .f32) : S512x64.Idx → Elt F .f32 := fun j =>
  k1_pay2 (accUpTo M3 ⟨(j 0).val / 128, by have h : (j 0).val < 512 := (j 0).isLt; omega⟩ 3)
    (ix2 (n0 := 128) (n1 := 64) ⟨(j 0).val % 128, Nat.mod_lt _ (by decide)⟩ ⟨(j 1).val, (j 1).isLt⟩)

/-- The result at an index given by its query block and its position inside the block. -/
theorem pairOut_of_coords (M3 : S512x16x64.Idx → Elt F .f32) (q : Fin 4) (y : S128x64.Idx) (j : S512x64.Idx)
    (h0 : (j 0).val = 128 * q.val + (y 0).val) (h1 : (j 1).val = (y 1).val) :
    pairOut M3 j = k1_pay2 (accUpTo M3 q 3) y := by
  have hy : (y 0).val < 128 := (y 0).isLt
  have hj : (j 0).val < 512 := (j 0).isLt
  have e : (⟨(j 0).val / 128, by omega⟩ : Fin 4) = q := Fin.ext (by show (j 0).val / 128 = q.val; omega)
  show k1_pay2 (accUpTo M3 ⟨(j 0).val / 128, _⟩ 3) _ = _
  rw [e]
  refine congrArg (k1_pay2 (accUpTo M3 q 3)) (funext fun a => ?_)
  match a with
  | ⟨0, _⟩ => exact Fin.ext (by show (j 0).val % 128 = (y 0).val; omega)
  | ⟨1, _⟩ => exact Fin.ext h1

/-- The result at row `b`, column `o`. -/
theorem pairOut_apply (M3 : S512x16x64.Idx → Elt F .f32) (b : Fin 512) (o : Fin 64) :
    pairOut M3 (ix2 b o) = k1_pay2 (accUpTo M3 ⟨b.val / 128, by have := b.isLt; omega⟩ 3)
      (ix2 (n0 := 128) (n1 := 64) ⟨b.val % 128, Nat.mod_lt _ (by decide)⟩ o) := rfl

variable (V : (c : Dev nD) → (b : Ref sig .tc) → Buf (Elt F) ((c : Thread nD τ).loc b))

/-! ## The input blocks -/

/-- The first input window's block index at every point: the query block on the row axis, 0 on the others. -/
theorem idx1_0 : ∀ t : Fin cfg1.N, win1_0.index t (0 : Fin 3) = t.val / 4 ∧ win1_0.index t (1 : Fin 3) = 0 ∧ win1_0.index t (2 : Fin 3) = 0 :=
  (by decide +kernel : ∀ t : Fin grid1.N, win1_0.index t (0 : Fin 3) = t.val / 4 ∧ win1_0.index t (1 : Fin 3) = 0 ∧ win1_0.index t (2 : Fin 3) = 0)

/-- The second input window's: the key block on the row axis. -/
theorem idx1_1 : ∀ t : Fin cfg1.N, win1_1.index t (0 : Fin 3) = t.val % 4 ∧ win1_1.index t (1 : Fin 3) = 0 ∧ win1_1.index t (2 : Fin 3) = 0 :=
  (by decide +kernel : ∀ t : Fin grid1.N, win1_1.index t (0 : Fin 3) = t.val % 4 ∧ win1_1.index t (1 : Fin 3) = 0 ∧ win1_1.index t (2 : Fin 3) = 0)

/-- The result window's: the query block on the row axis. -/
theorem idx1_2 : ∀ t : Fin cfg1.N, win1_2.index t (0 : Fin 2) = t.val / 4 ∧ win1_2.index t (1 : Fin 2) = 0 :=
  (by decide +kernel : ∀ t : Fin grid1.N, win1_2.index t (0 : Fin 2) = t.val / 4 ∧ win1_2.index t (1 : Fin 2) = 0)

/-- The first input block at point `t` is the query block's rows of the projections. -/
theorem iblk1_0_eq (c : Dev nD) (t : Fin cfg1.N) : iblk1 V c 0 t = rowsBlk (V c main_v3) (qBlk t.val) := by
  obtain ⟨e0, e1, e2⟩ := idx1_0 t
  have h16 := lt16 t
  funext y
  unfold iblk1
  rw [View.read_apply]
  unfold rowsBlk
  show V c main_v3 _ = V c main_v3 _
  refine congrArg (V c main_v3) (funext fun a => Fin.ext ?_)
  match a with
  | ⟨0, _⟩ => show win1_0.index t (0 : Fin 3) * 128 + 1 * (y 0).val = 128 * (t.val / 4 % 4) + (y 0).val; rw [e0]; omega
  | ⟨1, _⟩ => show win1_0.index t (1 : Fin 3) * 16 + 1 * (y 1).val = (y 1).val; rw [e1]; omega
  | ⟨2, _⟩ => show win1_0.index t (2 : Fin 3) * 64 + 1 * (y 2).val = (y 2).val; rw [e2]; omega

/-- The second input block at point `t` is the key block's rows of the projections. -/
theorem iblk1_1_eq (c : Dev nD) (t : Fin cfg1.N) : iblk1 V c 1 t = rowsBlk (V c main_v3) (kBlk t.val) := by
  obtain ⟨e0, e1, e2⟩ := idx1_1 t
  funext y
  unfold iblk1
  rw [View.read_apply]
  unfold rowsBlk
  show V c main_v3 _ = V c main_v3 _
  refine congrArg (V c main_v3) (funext fun a => Fin.ext ?_)
  match a with
  | ⟨0, _⟩ => show win1_1.index t (0 : Fin 3) * 128 + 1 * (y 0).val = 128 * (t.val % 4) + (y 0).val; rw [e0]; omega
  | ⟨1, _⟩ => show win1_1.index t (1 : Fin 3) * 16 + 1 * (y 1).val = (y 1).val; rw [e1]; omega
  | ⟨2, _⟩ => show win1_1.index t (2 : Fin 3) * 64 + 1 * (y 2).val = (y 2).val; rw [e2]; omega

/-! ## The accumulator after every point -/

/-- The accumulator after point `t`, given what it held after the point before (asked only when `t` is not a
    first key block). -/
theorem acc_case (c : Dev nD) (t : Fin cfg1.N)
    (prev : t.val % 4 ≠ 0 → (outsAt1 V c (t.val - 1) (Nat.lt_of_le_of_lt (Nat.sub_le _ _) t.isLt)).2
      = accUpTo (V c main_v3) (qBlk (t.val - 1)) ((t.val - 1) % 4)) :
    (outsAt1 V c t.val t.isLt).2 = accUpTo (V c main_v3) (qBlk t.val) (t.val % 4) := by
  have h16 := lt16 t
  by_cases h0 : t.val % 4 = 0
  · have hr : accUpTo (V c main_v3) (qBlk t.val) (t.val % 4) = accUpTo (V c main_v3) (qBlk t.val) 0 :=
      congrArg _ h0
    have ek : kBlk t.val = kBlk 0 := Fin.ext (by show t.val % 4 = 0 % 4; omega)
    rw [outsAt1_A V c t h0 (by omega), hr]
    dsimp only
    rw [sout1_A_eq, iblk1_0_eq, iblk1_1_eq, ek]
    rfl
  · have hq : qBlk (t.val - 1) = qBlk t.val := Fin.ext (by show (t.val - 1) / 4 % 4 = t.val / 4 % 4; omega)
    have hj : t.val % 4 = (t.val - 1) % 4 + 1 := by omega
    have ek : kBlk t.val = kBlk ((t.val - 1) % 4 + 1) := Fin.ext (by show t.val % 4 = ((t.val - 1) % 4 + 1) % 4; omega)
    have hr : accUpTo (V c main_v3) (qBlk t.val) (t.val % 4)
        = accUpTo (V c main_v3) (qBlk t.val) ((t.val - 1) % 4 + 1) := congrArg _ hj
    have hp := prev h0
    rw [hq] at hp
    by_cases h3 : t.val % 4 = 3
    · rw [outsAt1_C V c t h0 h3, hr]
      dsimp only
      rw [sout1_C_eq, iblk1_0_eq, iblk1_1_eq, hp, ek]
      rfl
    · rw [outsAt1_B V c t h0 h3, hr]
      dsimp only
      rw [sout1_B_eq, iblk1_0_eq, iblk1_1_eq, hp, ek]
      rfl

/-- The accumulator after point `t`: the steps of key blocks `0 ... t % 4` of query block `t / 4`. -/
theorem acc_at (c : Dev nD) (t : Fin cfg1.N) :
    (outsAt1 V c t.val t.isLt).2 = accUpTo (V c main_v3) (qBlk t.val) (t.val % 4) := by
  obtain ⟨n, hn⟩ := t
  induction n using Nat.strong_induction_on with
  | _ n ih => exact acc_case V c ⟨n, hn⟩ (fun h => ih (n - 1) (by show n - 1 < n; have : n % 4 ≠ 0 := h; omega) (Nat.lt_of_le_of_lt (Nat.sub_le _ _) hn))

/-! ## The result array -/

/-- What a point of key block 3 writes back is its block of `pairOut`. -/
theorem flushed_eq (c : Dev nD) (t : Fin cfg1.N) (hf : (cfg1.win 2).flush t = true) :
    (dat1 V c).flushed 2 t = ((cfg1.win 2).blk t).view.read (Elt F) (pairOut (V c main_v3)) := by
  have h3 : t.val % 4 = 3 := (flush1_2 t).mp hf
  have h16 := lt16 t
  obtain ⟨e0, e1⟩ := idx1_2 t
  have hacc := (acc_at V c t).trans (congrArg (accUpTo (V c main_v3) (qBlk t.val)) h3)
  show (cfg1.win 2).cut (grid1.coords t) ((dat1 V c).after 2 t) = _
  rw [after1_2]
  rw [outsAt1_C V c t (by omega) h3] at hacc ⊢
  dsimp only at hacc ⊢
  rw [sout1_C_eq] at hacc
  rw [out1_C_2_eq, hacc]
  funext y
  rw [View.read_apply]
  refine (pairOut_of_coords (V c main_v3) (qBlk t.val) ((cfg1.win 2).xinj (grid1.coords t) y) _ ?_ ?_).symm
  · show win1_2.index t (0 : Fin 2) * 128 + 1 * (y 0).val = 128 * (t.val / 4 % 4) + (y 0).val
    rw [e0]; omega
  · show win1_2.index t (1 : Fin 2) * 64 + 1 * (y 1).val = (y 1).val
    rw [e1]; omega

/-- The result array after the pass is `pairOut` of the projections: the four blocks written back (at the points
    of key block 3) tile its 512 rows. -/
theorem pair_array (c : Dev nD) : (dat1 V c).arrAt 2 cfg1.N = pairOut (V c main_v3) :=
  (dat1 V c).arrAt_eq_of_cover 2 (pairOut (V c main_v3)) (flushed_eq V c) fun (i : S512x64.Idx) => by
    have hi0 : (i 0).val < 512 := (i 0).isLt
    have hi1 : (i 1).val < 64 := (i 1).isLt
    have hN : cfg1.N = 16 := N_1
    obtain ⟨t, ht⟩ : ∃ t : Fin cfg1.N, t.val = 4 * ((i 0).val / 128) + 3 := ⟨⟨_, by rw [hN]; omega⟩, rfl⟩
    obtain ⟨e0, e1⟩ := idx1_2 t
    refine ⟨t, (flush1_2 t).mpr (by omega), ?_⟩
    show i ∈ ((View.whole main_v4).slice (win1_2.rect t)).set
    rw [View.set_slice_whole, Rect.mem_set_unit]
    intro a
    match a with
    | ⟨0, _⟩ =>
      show win1_2.index t (0 : Fin 2) * 128 ≤ (i 0).val ∧ (i 0).val < win1_2.index t (0 : Fin 2) * 128 + 128
      rw [e0]; omega
    | ⟨1, _⟩ =>
      show win1_2.index t (1 : Fin 2) * 64 ≤ (i 1).val ∧ (i 1).val < win1_2.index t (1 : Fin 2) * 64 + 64
      rw [e1]; omega

end Cert.KernelValue

end
-- ==== Proof.Spec.lean ====
/-
  The result both programs compute, written once as a function of the two inputs over the extended reals.

  Inputs: a batch x of 512 samples with 512 features each, and a tensor T of shape 512 x 64 x 16.
  Every sample b is projected to 64 small vectors of length 16:
      proj b o k = sum over i of x(b,i) * T(i,o,k).
  For a feature o, two samples b and a are compared by the L1 distance of their vectors,
      dist b a o = sum over k of |proj b o k - proj a o k|,
  and the closeness of b to the whole batch is the sum over all samples a of exp(-dist b a o), less the
  constant one (the sample's own term, exp 0).  The result row of sample b is its 512 features followed by its
  64 closeness values: an array of shape 512 x 576.

  Nothing here mentions either program; both are shown equal to `result`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the two inputs and of the result. -/
abbrev SX : Shape := ⟨2, ![512, 512]⟩
abbrev ST : Shape := ⟨3, ![512, 64, 16]⟩
abbrev SR : Shape := ⟨2, ![512, 576]⟩

variable (x : SX.Idx → EReal) (T : ST.Idx → EReal)

/-- The projection of sample `b`: entry `k` of its vector for feature `o`. -/
def proj (b : Fin 512) (o : Fin 64) (k : Fin 16) : EReal :=
  ∑ i : Fin 512, x (ix2 b i) * T (ix3 i o k)

/-- The L1 distance of samples `b` and `a` in feature `o` (the absolute value of an extended real `d` is `max d (-d)`). -/
def dist (b a : Fin 512) (o : Fin 64) : EReal :=
  ∑ k : Fin 16, max (proj x T b o k - proj x T a o k) (-(proj x T b o k - proj x T a o k))

/-- The closeness of sample `b` to the batch in feature `o`: the sum over every sample `a` of `exp (-dist)`,
    less the constant one. -/
def closeness (b : Fin 512) (o : Fin 64) : EReal :=
  (∑ a : Fin 512, Ideal.exp (-(dist x T b a o))) - Ideal.ofBits .f32 0x3F800000#32

/-- The result at row `b`, column `q`: the sample's own feature for `q < 512`, its closeness in feature
    `q - 512` otherwise. -/
def entry (b : Fin 512) (q : Fin 576) : EReal :=
  if h : q.val < 512 then x (ix2 b ⟨q.val, h⟩) else closeness x T b ⟨q.val - 512, by omega⟩

/-- The whole result array. -/
def result : SR.Idx → EReal := fun i => entry x T ⟨(i 0).val, (i 0).isLt⟩ ⟨(i 1).val, (i 1).isLt⟩

theorem result_ix2 (b : Fin 512) (q : Fin 576) : result x T (ix2 b q) = entry x T b q := rfl

end Cert.Spec

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.KernelMath0.lean ====
/-
  Three small readings of the kernel's pure values at an index, over the extended reals.

  The first kernel's stored value is the matrix product of its two loaded blocks into a zero accumulator: the
  narrowing to sixteen bits is the identity on extended reals, so entry (b, n) is the sum over i of v0 (b, i) · v2 (i, n).
  The second kernel's closing value is its accumulator less the constant one, entry by entry, and its opening value is
  zero everywhere.
-/
import proofs.«163702_j1176821039198_1_alg».proof.Proof.Gen.KernelIdeal.Skeleton
import proofs.«163702_j1176821039198_1_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelMath

open Idealize.ShloMosaic Idealize.ShloMosaic.ValueIdx Cert.KernelIdeal Cert.KernelIdeal.Gen

/-- The closing value at (r, o): the accumulator's entry less the constant one. -/
theorem pay2_apply (v : Vec Ideal S128x64 .f32) (r : Fin 128) (o : Fin 64) :
    k1_pay2 v (ix2 r o) = v (ix2 r o) - Ideal.ofBits .f32 0x3F800000#32 := rfl

/-- The opening value is zero at every entry. -/
theorem pay3_apply (r : Fin 128) (o : Fin 64) : (k1_pay3 (F := Ideal)) (ix2 r o) = 0 := by
  unfold k1_pay3
  rw [shapeCast_self]
  exact Ideal.ofBits_zero_f32

/-- The first kernel's stored value at (b, n): the sum over i of v0 (b, i) · v2 (i, n). -/
theorem pay0_apply (v0 : Vec Ideal S512x512 .f32) (v2 : Vec Ideal S512x1024 .f32) (b : Fin 512) (n : Fin 1024) :
    k0_pay1 v0 v2 (ix2 b n) = ∑ i : Fin 512, v0 (ix2 b i) * v2 (ix2 i n) := by
  unfold k0_pay1
  rw [shapeCast_self]
  exact Cert.PlainDot.matmul_zero_apply dot_S512x512_S512x1024_S512x1024_1_0_0_1_n_n rfl rfl rfl rfl rfl rfl none
    (truncf .bf16 v0 bitsLt_bf16_f32) (truncf .bf16 v2 bitsLt_bf16_f32) b n

end Cert.KernelMath

end
-- ==== Proof.KernelMath1.lean ====
/-
  The layout operations of one pairwise term, read at an index.

  From a block X of shape [128, 16, 64] the kernel takes the plane k (a slice of extent one along the middle axis, viewed
  as a [128, 64] matrix), and spreads that matrix over a [128, 128, 64] array in two ways: along a new middle axis
  (entry (r, j, c) is the matrix at (r, c): the row sample's plane) and along a new leading axis (entry (r, j, c) is the
  matrix at (j, c): the column sample's plane). None of these moves a value: each reads one entry of its operand.
-/
import Idealize.ShloMosaic.Lib.ValueIdx
import Idealize.ShloMosaic.Lib.Pipeline.Value
import Idealize.ShloMosaic.Lib.ValueLayout

namespace Cert.KernelMath

open Idealize.ShloMosaic Idealize.ShloMosaic.ValueIdx

variable {α : Type}

/-- The plane at offset o of a [128, 16, 64] block, viewed as a matrix, reads at (r, c) the block at (r, k, c), k = o. -/
theorem plane_apply (o : Nat) (X : (⟨3, ![128, 16, 64]⟩ : Shape).Idx → α)
    (hs : (⟨3, ![128, 16, 64]⟩ : Shape).Slices ![0, o, 0] ⟨3, ![128, 1, 64]⟩)
    (hc : (⟨3, ![128, 1, 64]⟩ : Shape).ShapeCasts ⟨2, ![128, 64]⟩)
    (k : Fin 16) (hk : k.val = o) (r : Fin 128) (c : Fin 64) :
    shapeCast ⟨2, ![128, 64]⟩ (extractStridedSlice ⟨3, ![128, 1, 64]⟩ ![0, o, 0] X hs) hc (ix2 r c) = X (ix3 r k c) := by
  refine (shapeCast_apply _ hc (ix2 r c) (ix3 r (0 : Fin 1) c) ?_).trans ?_
  · rw [Shape.rowMajor_val_three, Shape.rowMajor_val_two]
    show (r.val * 1 + 0) * 64 + c.val = r.val * 64 + c.val
    omega
  · exact slice3_axis1_apply o X hs r (0 : Fin 1) c k (by show k.val = o + 0; omega)

/-- A [128, 64] matrix spread along a new middle axis reads at (r, j, c) the matrix at (r, c). -/
theorem spreadMid_apply (V : (⟨2, ![128, 64]⟩ : Shape).Idx → α)
    (hc : (⟨2, ![128, 64]⟩ : Shape).ShapeCasts ⟨3, ![128, 1, 64]⟩)
    (hb : (⟨3, ![128, 1, 64]⟩ : Shape).Broadcasts ⟨3, ![128, 128, 64]⟩) (r j : Fin 128) (c : Fin 64) :
    broadcastTo ⟨3, ![128, 128, 64]⟩ (shapeCast ⟨3, ![128, 1, 64]⟩ V hc) hb (ix3 r j c) = V (ix2 r c) := by
  refine (broadcastTo_apply _ hb (ix3 r j c) (ix3 r (0 : Fin 1) c) fun a => ?_).trans ?_
  · match a with
    | ⟨0, _⟩ => rfl
    | ⟨1, _⟩ => rfl
    | ⟨2, _⟩ => rfl
  · refine shapeCast_apply V hc _ (ix2 r c) ?_
    rw [Shape.rowMajor_val_three, Shape.rowMajor_val_two]
    show r.val * 64 + c.val = (r.val * 1 + 0) * 64 + c.val
    omega

/-- A [128, 64] matrix spread along a new leading axis reads at (r, j, c) the matrix at (j, c). -/
theorem spreadLead_apply (V : (⟨2, ![128, 64]⟩ : Shape).Idx → α)
    (hc : (⟨2, ![128, 64]⟩ : Shape).ShapeCasts ⟨3, ![1, 128, 64]⟩)
    (hb : (⟨3, ![1, 128, 64]⟩ : Shape).Broadcasts ⟨3, ![128, 128, 64]⟩) (r j : Fin 128) (c : Fin 64) :
    broadcastTo ⟨3, ![128, 128, 64]⟩ (shapeCast ⟨3, ![1, 128, 64]⟩ V hc) hb (ix3 r j c) = V (ix2 j c) := by
  refine (broadcastTo_apply _ hb (ix3 r j c) (ix3 (0 : Fin 1) j c) fun a => ?_).trans ?_
  · match a with
    | ⟨0, _⟩ => rfl
    | ⟨1, _⟩ => rfl
    | ⟨2, _⟩ => rfl
  · exact shapeCast_ab_1ab_apply V hc (0 : Fin 1) j c

end Cert.KernelMath
-- ==== Proof.KernelMath2.lean ====
/-
  The second kernel's intermediate values at an index.

  Its body takes, for each of the sixteen planes k of the two loaded blocks, the array whose entry (r, j, c) is
  |x0 (r, k, c) - x1 (j, k, c)|, and adds the sixteen arrays left to right. The imported skeleton cuts that chain into
  named values; each is read here at an entry (r, j, c) as the part of the running sum it holds.
-/
import proofs.«163702_j1176821039198_1_alg».proof.Proof.Gen.KernelIdeal.Skeleton
import proofs.«163702_j1176821039198_1_alg».proof.Proof.KernelMath1
import Idealize.ShloMosaic.PureOps.Ideal.Laws

noncomputable section

open scoped BigOperators

namespace Cert.KernelMath

open Idealize.ShloMosaic Idealize.ShloMosaic.ValueIdx Cert.KernelIdeal Cert.KernelIdeal.Gen

/-- The absolute difference, in plane k and lane c, of row sample r of the block x0 and column sample j of the block x1. -/
def ad (x0 x1 : FVec Ideal S128x16x64 .f32) (r j : Fin 128) (k : Fin 16) (c : Fin 64) : EReal :=
  max (x0 (ix3 r k c) - x1 (ix3 j k c)) (-(x0 (ix3 r k c) - x1 (ix3 j k c)))

/-- The two loaded blocks pass through a shape cast to their own shape: unchanged. -/
theorem pay4_eq (x : Vec Ideal S128x16x64 .f32) : k1_pay4 x = x := shapeCast_self x _
theorem pay5_eq (x : Vec Ideal S128x16x64 .f32) : k1_pay5 x = x := shapeCast_self x _

/-- The difference of the two spread planes at offset o, read at (r, j, c). -/
theorem diff_apply (o : Nat) (x0 x1 : FVec Ideal S128x16x64 .f32)
    (hs : S128x16x64.Slices ![0, o, 0] S128x1x64) (h1 : S128x1x64.ShapeCasts S128x64)
    (h2 : S128x64.ShapeCasts S128x1x64) (h3 : S128x64.ShapeCasts S1x128x64)
    (hb2 : S128x1x64.Broadcasts S128x128x64) (hb3 : S1x128x64.Broadcasts S128x128x64)
    (k : Fin 16) (hk : k.val = o) (r j : Fin 128) (c : Fin 64) :
    subf
      (broadcastTo S128x128x64 (shapeCast S128x1x64 (shapeCast S128x64 (extractStridedSlice S128x1x64 ![0, o, 0] x0 hs) h1) h2) hb2)
      (broadcastTo S128x128x64 (shapeCast S1x128x64 (shapeCast S128x64 (extractStridedSlice S128x1x64 ![0, o, 0] x1 hs) h1) h3) hb3)
      (ix3 r j c) = x0 (ix3 r k c) - x1 (ix3 j k c) := by
  show _ - _ = _
  rw [spreadMid_apply, spreadLead_apply, plane_apply o x0 hs h1 k hk, plane_apply o x1 hs h1 k hk]

/-- One pairwise term: the absolute value of that difference. -/
theorem term_apply (o : Nat) (x0 x1 : FVec Ideal S128x16x64 .f32)
    (hs : S128x16x64.Slices ![0, o, 0] S128x1x64) (h1 : S128x1x64.ShapeCasts S128x64)
    (h2 : S128x64.ShapeCasts S128x1x64) (h3 : S128x64.ShapeCasts S1x128x64)
    (hb2 : S128x1x64.Broadcasts S128x128x64) (hb3 : S1x128x64.Broadcasts S128x128x64)
    (k : Fin 16) (hk : k.val = o) (r j : Fin 128) (c : Fin 64) :
    absf (subf
      (broadcastTo S128x128x64 (shapeCast S128x1x64 (shapeCast S128x64 (extractStridedSlice S128x1x64 ![0, o, 0] x0 hs) h1) h2) hb2)
      (broadcastTo S128x128x64 (shapeCast S1x128x64 (shapeCast S128x64 (extractStridedSlice S128x1x64 ![0, o, 0] x1 hs) h1) h3) hb3))
      (ix3 r j c) = ad x0 x1 r j k c := by
  show max (subf _ _ (ix3 r j c)) (-(subf _ _ (ix3 r j c))) = _
  rw [diff_apply o x0 x1 hs h1 h2 h3 hb2 hb3 k hk r j c]
  rfl

/-- Planes 0, 1, 2 added left to right. -/
theorem pay6_apply (x0 x1 : Vec Ideal S128x16x64 .f32) (r j : Fin 128) (c : Fin 64) :
    k1_pay6 x0 x1 (ix3 r j c) = ad x0 x1 r j 0 c + ad x0 x1 r j 1 c + ad x0 x1 r j 2 c := by
  unfold k1_pay6
  rw [pay4_eq, pay5_eq, addf_apply, addf_apply,
    term_apply 0 x0 x1 _ _ _ _ _ _ 0 rfl r j c, term_apply 1 x0 x1 _ _ _ _ _ _ 1 rfl r j c,
    term_apply 2 x0 x1 _ _ _ _ _ _ 2 rfl r j c]

/-- Plane 3. -/
theorem pay7_apply (x0 x1 : Vec Ideal S128x16x64 .f32) (r j : Fin 128) (c : Fin 64) :
    k1_pay7 x0 x1 (ix3 r j c) = ad x0 x1 r j 3 c := by
  unfold k1_pay7
  rw [pay4_eq, pay5_eq]
  exact term_apply 3 x0 x1 _ _ _ _ _ _ 3 rfl r j c

/-- The running sum so far, plane 3's term, then planes 4 to 8. -/
theorem pay8_apply (v4 v6 : FVec Ideal S128x16x64 .f32) (v38 v48 : FVec Ideal S128x128x64 .f32) (r j : Fin 128) (c : Fin 64) :
    k1_pay8 v4 v6 v38 v48 (ix3 r j c)
      = v38 (ix3 r j c) + v48 (ix3 r j c) + ad v4 v6 r j 4 c + ad v4 v6 r j 5 c + ad v4 v6 r j 6 c + ad v4 v6 r j 7 c
        + ad v4 v6 r j 8 c := by
  unfold k1_pay8
  rw [addf_apply, addf_apply, addf_apply, addf_apply, addf_apply, addf_apply,
    term_apply 4 v4 v6 _ _ _ _ _ _ 4 rfl r j c, term_apply 5 v4 v6 _ _ _ _ _ _ 5 rfl r j c,
    term_apply 6 v4 v6 _ _ _ _ _ _ 6 rfl r j c, term_apply 7 v4 v6 _ _ _ _ _ _ 7 rfl r j c,
    term_apply 8 v4 v6 _ _ _ _ _ _ 8 rfl r j c]

/-- Plane 9 of each block, as a matrix. -/
theorem pay9_apply (v4 : FVec Ideal S128x16x64 .f32) (r : Fin 128) (c : Fin 64) :
    k1_pay9 v4 (ix2 r c) = v4 (ix3 r 9 c) := by
  unfold k1_pay9
  exact plane_apply 9 v4 _ _ 9 rfl r c
theorem pay10_apply (v6 : FVec Ideal S128x16x64 .f32) (r : Fin 128) (c : Fin 64) :
    k1_pay10 v6 (ix2 r c) = v6 (ix3 r 9 c) := by
  unfold k1_pay10
  exact plane_apply 9 v6 _ _ 9 rfl r c

/-- The running sum so far, the term of the two plane-9 matrices, then planes 10 to 13. -/
theorem pay11_apply (v4 v6 : FVec Ideal S128x16x64 .f32) (v104 : FVec Ideal S128x128x64 .f32) (v106 v108 : FVec Ideal S128x64 .f32)
    (r j : Fin 128) (c : Fin 64) :
    k1_pay11 v4 v6 v104 v106 v108 (ix3 r j c)
      = v104 (ix3 r j c) + max (v106 (ix2 r c) - v108 (ix2 j c)) (-(v106 (ix2 r c) - v108 (ix2 j c)))
        + ad v4 v6 r j 10 c + ad v4 v6 r j 11 c + ad v4 v6 r j 12 c + ad v4 v6 r j 13 c := by
  unfold k1_pay11
  rw [addf_apply, addf_apply, addf_apply, addf_apply, addf_apply,
    term_apply 10 v4 v6 _ _ _ _ _ _ 10 rfl r j c, term_apply 11 v4 v6 _ _ _ _ _ _ 11 rfl r j c,
    term_apply 12 v4 v6 _ _ _ _ _ _ 12 rfl r j c, term_apply 13 v4 v6 _ _ _ _ _ _ 13 rfl r j c]
  refine congrArg (fun t => v104 (ix3 r j c) + t + ad v4 v6 r j 10 c + ad v4 v6 r j 11 c + ad v4 v6 r j 12 c + ad v4 v6 r j 13 c) ?_
  show max (_ - _) (-(_ - _)) = _
  rw [spreadMid_apply, spreadLead_apply]

/-- Plane 14's difference (its absolute value is taken by the next value). -/
theorem pay12_apply (v4 v6 : FVec Ideal S128x16x64 .f32) (r j : Fin 128) (c : Fin 64) :
    k1_pay12 v4 v6 (ix3 r j c) = v4 (ix3 r 14 c) - v6 (ix3 j 14 c) := by
  unfold k1_pay12
  exact diff_apply 14 v4 v6 _ _ _ _ _ _ 14 rfl r j c

end Cert.KernelMath

end
-- ==== Proof.KernelMath3.lean ====
/-
  One grid step of the second kernel, read at an index.

  The step adds to the accumulator, at row sample r and lane o, the sum over the 128 column samples j of
  exp (-(sum over the sixteen planes k of |x0 (r, k, o) - x1 (j, k, o)|)). The kernel writes 0 - n for -n with 0 the
  zero word, takes the sum over j as a lane reduction along the middle axis, and adds the sixteen planes' terms one by
  one; on the extended reals these are the same sums.
-/
import proofs.«163702_j1176821039198_1_alg».proof.Proof.Gen.KernelIdeal.Skeleton
import proofs.«163702_j1176821039198_1_alg».proof.Proof.KernelMath2
import Idealize.ShloMosaic.PureOps.Ideal.Laws

noncomputable section

open scoped BigOperators

namespace Cert.KernelMath

open Idealize.ShloMosaic Idealize.ShloMosaic.ValueIdx Cert.KernelIdeal Cert.KernelIdeal.Gen

/-- The lane sum over the middle axis of a [128, 128, 64] array, read at (r, c): the sum over j of the array at (r, j, c). -/
theorem laneSum_apply (src : FVec Ideal S128x128x64 .f32) (h : S128x128x64.Reduces [1] S128x64) (hφ : FKind.Formats .f32)
    (hacc : (0x00000000#32 : BitVec 32) = FKind.add.neutral .f32 hφ) (r : Fin 128) (c : Fin 64) :
    multiReduction .add [1] S128x64 src 0x00000000#32 h hφ hacc (ix2 r c) = ∑ j : Fin 128, src (ix3 r j c) := by
  refine (Ideal.multiReduction_add_single src 0x00000000#32 h hφ hacc (ix2 r c)).trans ?_
  refine Finset.sum_congr rfl fun j _ => congrArg src ?_
  funext a
  match a with
  | ⟨0, _⟩ => rfl
  | ⟨1, _⟩ => rfl
  | ⟨2, _⟩ => rfl

/-- The stored accumulator at (r, c): the old accumulator plus, summed over the 128 column samples j, the exponential of
    minus the finished distance — the running sum, the absolute value of plane 14's difference, and plane 15's term. -/
theorem pay1_apply (v4 v6 : FVec Ideal S128x16x64 .f32) (v159 v168 : FVec Ideal S128x128x64 .f32) (v185 : Vec Ideal S128x64 .f32)
    (r : Fin 128) (c : Fin 64) :
    k1_pay1 v4 v6 v159 v168 v185 (ix2 r c)
      = v185 (ix2 r c) + ∑ j : Fin 128, Ideal.exp (-(v159 (ix3 r j c)
          + max (v168 (ix3 r j c)) (-(v168 (ix3 r j c))) + ad v4 v6 r j 15 c)) := by
  unfold k1_pay1
  rw [shapeCast_self, addf_apply]
  refine congrArg (v185 (ix2 r c) + ·) ?_
  refine (laneSum_apply _ _ _ _ r c).trans ?_
  refine Finset.sum_congr rfl fun j _ => ?_
  show Ideal.exp (Ideal.ofBits .f32 0x00000000#32 - (addf (addf v159 (absf v168)) _ (ix3 r j c))) = _
  rw [Ideal.ofBits_zero_f32, zero_sub, addf_apply, addf_apply, term_apply 15 v4 v6 _ _ _ _ _ _ 15 rfl r j c]
  rfl

/-- A sum over sixteen planes written out, added left to right. -/
theorem sum_sixteen {M : Type*} [AddCommMonoid M] (f : Fin 16 → M) :
    ∑ k : Fin 16, f k
      = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_zero, zero_add]
  rfl

/-- One grid step of the second kernel as a function of its two loaded blocks (row samples x0, column samples x1) and
    the accumulator it finds: the skeleton's named values chained as the kernel body chains them. -/
def step (x0 x1 : Vec Ideal S128x16x64 .f32) (acc : Vec Ideal S128x64 .f32) : FVec Ideal S128x64 .f32 :=
  k1_pay1 (k1_pay4 x0) (k1_pay5 x1)
    (k1_pay11 (k1_pay4 x0) (k1_pay5 x1)
      (k1_pay8 (k1_pay4 x0) (k1_pay5 x1) (k1_pay6 x0 x1) (k1_pay7 x0 x1)) (k1_pay9 (k1_pay4 x0)) (k1_pay10 (k1_pay5 x1)))
    (k1_pay12 (k1_pay4 x0) (k1_pay5 x1)) acc

/-- THE STEP AT (r, o): the accumulator gains, for each of the 128 column samples j, the exponential of minus the L1
    distance over the sixteen planes between row sample r and column sample j in lane o. -/
theorem step_apply (x0 x1 : Vec Ideal S128x16x64 .f32) (acc : Vec Ideal S128x64 .f32) (r : Fin 128) (o : Fin 64) :
    step x0 x1 acc (ix2 r o)
      = acc (ix2 r o) + ∑ j : Fin 128, Ideal.exp (-(∑ k : Fin 16,
          max (x0 (ix3 r k o) - x1 (ix3 j k o)) (-(x0 (ix3 r k o) - x1 (ix3 j k o))))) := by
  unfold step
  rw [pay4_eq, pay5_eq, pay1_apply]
  refine congrArg (acc (ix2 r o) + ·) (Finset.sum_congr rfl fun j _ => congrArg (fun t => Ideal.exp (-t)) ?_)
  rw [pay11_apply, pay8_apply, pay6_apply, pay7_apply, pay9_apply, pay10_apply, pay12_apply]
  exact (sum_sixteen fun k => ad x0 x1 r j k o).symm

end Cert.KernelMath

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.KernelMath4.lean ====
/-
  The accumulation over the four column tiles.

  The 512 column samples are visited in four tiles of 128: sample 128·s + j is position j of tile s. An accumulator that
  starts at zero and, tile after tile, gains the sum of a function over that tile's 128 samples ends at the sum of the
  function over all 512 samples. Only the commutative-monoid laws of addition are used, so infinite values are covered.
-/
import proofs.«163702_j1176821039198_1_alg».proof.Proof.LibTileSum
import Mathlib.Data.EReal.Basic

open scoped BigOperators

namespace Cert.KernelMath

/-- Sample j of tile s among the 512 samples. -/
def tile (s : Fin 4) (j : Fin 128) : Fin 512 := ⟨128 * s.val + j.val, by omega⟩

theorem tile_val (s : Fin 4) (j : Fin 128) : (tile s j).val = 128 * s.val + j.val := rfl

/-- Zero, plus the four tile sums added left to right, is the sum over all 512 samples. -/
theorem sum_four_tiles (f : Fin 512 → EReal) :
    0 + (∑ j : Fin 128, f (tile 0 j)) + (∑ j : Fin 128, f (tile 1 j)) + (∑ j : Fin 128, f (tile 2 j))
      + (∑ j : Fin 128, f (tile 3 j)) = ∑ a : Fin 512, f a := by
  have key := Cert.TileSum.sum_tiles 4 128 (fun n => if h : n < 512 then f ⟨n, h⟩ else 0)
  have hr : (∑ r : Fin (4 * 128), (fun n => if h : n < 512 then f ⟨n, h⟩ else 0) r.val) = ∑ a : Fin 512, f a :=
    Finset.sum_congr rfl fun a _ => dif_pos a.isLt
  rw [← hr, ← key, Finset.sum_range_succ, Finset.sum_range_succ, Finset.sum_range_succ, Finset.sum_range_succ,
    Finset.sum_range_zero]
  have ht : ∀ (s : Fin 4) (j : Fin 128),
      (fun n => if h : n < 512 then f ⟨n, h⟩ else 0) (128 * s.val + j.val) = f (tile s j) := fun s j =>
    dif_pos (tile s j).isLt
  exact congrArg₂ (· + ·) (congrArg₂ (· + ·) (congrArg₂ (· + ·) (congrArg₂ (· + ·) rfl
    (Finset.sum_congr rfl fun j _ => (ht 0 j).symm)) (Finset.sum_congr rfl fun j _ => (ht 1 j).symm))
    (Finset.sum_congr rfl fun j _ => (ht 2 j).symm)) (Finset.sum_congr rfl fun j _ => (ht 3 j).symm)

/-- The same as a recurrence: a sequence that starts at zero and gains tile s's sum at step s is, after the four steps,
    the sum over all 512 samples. -/
theorem acc_four_tiles (f : Fin 512 → EReal) (a : Fin 5 → EReal) (h0 : a 0 = 0)
    (hs : ∀ s : Fin 4, a s.succ = a s.castSucc + ∑ j : Fin 128, f (tile s j)) : a 4 = ∑ p : Fin 512, f p := by
  rw [← sum_four_tiles f, ← h0]
  have e1 := hs 0
  have e2 := hs 1
  have e3 := hs 2
  have e4 := hs 3
  show a (Fin.succ 3) = _
  rw [e4]
  show a (Fin.succ 2) + _ = _
  rw [e3]
  show a (Fin.succ 1) + _ + _ = _
  rw [e2]
  show a (Fin.succ 0) + _ + _ + _ = _
  rw [e1]
  rfl

end Cert.KernelMath
-- ==== Proof.KernelMath.lean ====
/-
  The kernel's arithmetic at an index, collected: the first kernel's matrix product (pay0_apply), the second kernel's
  opening and closing values (pay3_apply, pay2_apply), its grid step (step, step_apply), and the accumulation over the
  four column tiles (tile, sum_four_tiles, acc_four_tiles).
-/
import proofs.«163702_j1176821039198_1_alg».proof.Proof.KernelMath0
import proofs.«163702_j1176821039198_1_alg».proof.Proof.KernelMath3
import proofs.«163702_j1176821039198_1_alg».proof.Proof.KernelMath4
-- ==== Proof.Value.PairwiseValue.lean ====
/-
  The pairwise pass's result array is the closeness of the specification.

  Row b of the result lies in query block b / 128 at local row b % 128. Its accumulator starts at zero and takes one
  step per key block s = 0, 1, 2, 3; a step adds, at (r, o), the sum over the block's 128 samples j of
  exp (-(L1 distance between the query row and sample 128·s + j)), the entries being projections. The four blocks tile
  the 512 samples, so the accumulator ends at the sum over every sample, and the result is that sum less the constant one.
-/
import proofs.«163702_j1176821039198_1_alg».proof.Proof.Spec
import proofs.«163702_j1176821039198_1_alg».proof.Proof.KernelMath
import proofs.«163702_j1176821039198_1_alg».proof.Proof.Value.PairwiseArray

noncomputable section

open scoped BigOperators

namespace Cert.KernelValue

open Idealize.ShloMosaic Idealize.ShloMosaic.ValueIdx Cert.KernelIdeal Cert.KernelIdeal.Gen Cert.KernelIdeal.Frame
open Cert.KernelMath

/-- One step of query block i against key block s, at local row r and lane o, when the array holds the projections: the
    accumulator gains the sum over the key block's samples of exp (-(distance from sample b = 128·i + r)). -/
theorem step_tile (x : Cert.Spec.SX.Idx → EReal) (T : Cert.Spec.ST.Idx → EReal) (M3 : S512x16x64.Idx → EReal)
    (hM3 : ∀ b k o, M3 (ix3 b k o) = Cert.Spec.proj x T b o k) (i s : Fin 4) (r : Fin 128) (o : Fin 64) (b : Fin 512)
    (hb : b.val = 128 * i.val + r.val) (acc : Vec Ideal S128x64 .f32) :
    stepF (F := Ideal) (rowsBlk (F := Ideal) M3 i) (rowsBlk (F := Ideal) M3 s) acc (ix2 r o)
      = acc (ix2 r o) + ∑ j : Fin 128, Ideal.exp (-(Cert.Spec.dist x T b (tile s j) o)) := by
  show Cert.KernelMath.step (rowsBlk (F := Ideal) M3 i) (rowsBlk (F := Ideal) M3 s) acc (ix2 r o) = _
  rw [step_apply]
  refine congrArg (acc (ix2 r o) + ·) (Finset.sum_congr rfl fun j _ => congrArg (fun t => Ideal.exp (-t)) ?_)
  unfold Cert.Spec.dist
  refine Finset.sum_congr rfl fun k _ => ?_
  have e0 : rowsBlk (F := Ideal) M3 i (ix3 r k o) = Cert.Spec.proj x T b o k := by
    rw [← hM3]
    show M3 (ix3 _ k o) = _
    exact congrArg (fun t => M3 (ix3 t k o)) (Fin.ext hb.symm)
  have e1 : rowsBlk (F := Ideal) M3 s (ix3 j k o) = Cert.Spec.proj x T (tile s j) o k := by
    rw [← hM3]
    show M3 (ix3 _ k o) = _
    exact congrArg (fun t => M3 (ix3 t k o)) (Fin.ext rfl)
  rw [e0, e1]

/-- THE RESULT IS THE CLOSENESS: when the array holds the projections, the pass's result at (b, o) is the sum over every
    sample a of exp (-(dist b a o)), less the constant one. -/
theorem pairOut_closeness (x : Cert.Spec.SX.Idx → EReal) (T : Cert.Spec.ST.Idx → EReal) (M3 : S512x16x64.Idx → EReal)
    (hM3 : ∀ b k o, M3 (ix3 b k o) = Cert.Spec.proj x T b o k) (b : Fin 512) (o : Fin 64) :
    pairOut (F := Ideal) M3 (ix2 b o) = Cert.Spec.closeness x T b o := by
  have hb : b.val = 128 * (b.val / 128) + b.val % 128 := by omega
  rw [pairOut_apply, pay2_apply]
  unfold Cert.Spec.closeness
  refine congrArg (· - Ideal.ofBits .f32 0x3F800000#32) ?_
  rw [← sum_four_tiles]
  show stepF (F := Ideal) _ (rowsBlk (F := Ideal) M3 3) (stepF (F := Ideal) _ (rowsBlk (F := Ideal) M3 2)
    (stepF (F := Ideal) _ (rowsBlk (F := Ideal) M3 1) (stepF (F := Ideal) _ (rowsBlk (F := Ideal) M3 0)
      (k1_pay3 (F := Ideal))))) (ix2 _ o) = _
  rw [step_tile x T M3 hM3 _ 3 _ o b hb, step_tile x T M3 hM3 _ 2 _ o b hb, step_tile x T M3 hM3 _ 1 _ o b hb,
    step_tile x T M3 hM3 _ 0 _ o b hb, pay3_apply]

end Cert.KernelValue

end
-- ==== Proof.Value.HostReads.lean ====
/-
  The three reshapings around the first kernel, read at an index.

  The tensor T of shape [512, 64, 16] is transposed to [512, 16, 64] and flattened to a [512, 1024] matrix, so that
  column 64·k + o of the matrix holds T (i, o, k). The first kernel multiplies the batch x by that matrix; its
  [512, 1024] product is viewed as [512, 16, 64], entry (b, k, o) being column 64·k + o of row b. Together: entry
  (b, k, o) of the viewed product is the projection of sample b, feature o, component k.
-/
import proofs.«163702_j1176821039198_1_alg».proof.Proof.Spec
import proofs.«163702_j1176821039198_1_alg».proof.Proof.KernelMath0
import Idealize.ShloMosaic.Lib.ValueLayout

noncomputable section

open scoped BigOperators

namespace Cert.KernelValue

open Idealize.ShloMosaic Idealize.ShloMosaic.ValueIdx Cert.KernelIdeal Cert.KernelIdeal.Gen

variable {α : Type}

/-- The transposed and flattened tensor at (i, n): T at feature n mod 64 and component n div 64. -/
theorem tflat_apply (T : S512x64x16.Idx → α) (h1 : S512x64x16.Transposes [0, 2, 1] S512x16x64)
    (h2 : S512x16x64.ShapeCasts S512x1024) (i : Fin 512) (n : Fin 1024) :
    shapeCast S512x1024 (transpose S512x16x64 [0, 2, 1] T h1) h2 (ix2 i n)
      = T (ix3 i (⟨n.val % 64, Nat.mod_lt _ (by decide)⟩ : Fin 64) (⟨n.val / 64, by have := n.isLt; omega⟩ : Fin 16)) := by
  refine (shapeCast_apply _ h2 (ix2 i n)
    (ix3 i (⟨n.val / 64, by have := n.isLt; omega⟩ : Fin 16) (⟨n.val % 64, Nat.mod_lt _ (by decide)⟩ : Fin 64)) ?_).trans ?_
  · rw [Shape.rowMajor_val_three, Shape.rowMajor_val_two]
    show (i.val * 16 + n.val / 64) * 64 + n.val % 64 = i.val * 1024 + n.val
    omega
  · exact transpose_ix3_021_apply T h1 i _ _

/-- The [512, 1024] product viewed as [512, 16, 64], at (b, k, o): the product at row b, column 64·k + o. -/
theorem m3_apply (M2 : S512x1024.Idx → α) (h3 : S512x1024.ShapeCasts S512x16x64) (b : Fin 512) (k : Fin 16) (o : Fin 64) :
    shapeCast S512x16x64 M2 h3 (ix3 b k o)
      = M2 (ix2 b (⟨64 * k.val + o.val, by have := k.isLt; have := o.isLt; omega⟩ : Fin 1024)) := by
  refine shapeCast_apply M2 h3 (ix3 b k o) _ ?_
  rw [Shape.rowMajor_val_three, Shape.rowMajor_val_two]
  show b.val * 1024 + (64 * k.val + o.val) = (b.val * 16 + k.val) * 64 + o.val
  omega

/-- THE VIEWED PRODUCT IS THE PROJECTION: entry (b, k, o) is the sum over i of x (b, i) · T (i, o, k). -/
theorem m3_proj (x : S512x512.Idx → EReal) (T : S512x64x16.Idx → EReal)
    (h1 : S512x64x16.Transposes [0, 2, 1] S512x16x64) (h2 : S512x16x64.ShapeCasts S512x1024)
    (h3 : S512x1024.ShapeCasts S512x16x64) (b : Fin 512) (k : Fin 16) (o : Fin 64) :
    shapeCast S512x16x64 (k0_pay1 (F := Ideal) x (shapeCast S512x1024 (transpose S512x16x64 [0, 2, 1] T h1) h2)) h3 (ix3 b k o)
      = Cert.Spec.proj x T b o k := by
  rw [m3_apply, Cert.KernelMath.pay0_apply]
  refine Finset.sum_congr rfl fun i _ => ?_
  rw [tflat_apply]
  have ho : (⟨(64 * k.val + o.val) % 64, Nat.mod_lt _ (by decide)⟩ : Fin 64) = o :=
    Fin.ext (by show (64 * k.val + o.val) % 64 = o.val; have := o.isLt; omega)
  have hk : (⟨(64 * k.val + o.val) / 64, by have := k.isLt; have := o.isLt; omega⟩ : Fin 16) = k :=
    Fin.ext (by show (64 * k.val + o.val) / 64 = k.val; have := o.isLt; omega)
  rw [ho, hk]

end Cert.KernelValue

end
-- ==== Proof.LibConcatCols.lean ====
/-
  Two blocks of columns set side by side, read at an index, for any extents.

  A matrix [R, n] and a matrix [R, n'] joined along the column axis make a matrix [R, n + n']: at (r, q) it is the
  left matrix at (r, q) when q < n, and the right matrix at (r, q - n) otherwise. The index is built from its two
  coordinates, so that the coordinates have literal types at a use site.
-/
import Idealize.ShloMosaic.Lib.ValueIdx
import Idealize.ShloMosaic.Lib.Pipeline.Value

namespace Cert.LibConcatCols

open Idealize.ShloMosaic Idealize.ShloMosaic.ValueIdx

variable {α : Type}

/-- `n` columns and `n'` more columns side by side (`N = n + n'` columns): at `(r, q)` the left block at `(r, q)`
    when `q < n`, the right block at `(r, q - n)` otherwise. -/
theorem concat_cols_apply {R n n' N : ℕ} (hN : N = n + n') (A : (⟨2, ![R, n]⟩ : Shape).Idx → α)
    (B : (⟨2, ![R, n']⟩ : Shape).Idx → α)
    (h : Shape.Concatenates [⟨2, ![R, n]⟩, ⟨2, ![R, n']⟩] ⟨2, ![R, N]⟩ 1) (r : Fin R) (q : Fin N) :
    concatenate ⟨2, ![R, N]⟩ 1 [⟨⟨2, ![R, n]⟩, A⟩, ⟨⟨2, ![R, n']⟩, B⟩] h (ix2 r q)
      = if hq : q.val < n then A (ix2 r ⟨q.val, hq⟩)
        else B (ix2 r ⟨q.val - n, by have := q.isLt; omega⟩) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r ⟨q.val - n, by have := q.isLt; omega⟩)
      (fun b hb => match b, hb with | ⟨0, _⟩, _ => rfl | ⟨1, _⟩, hb => absurd rfl hb) ?_
    show q.val - n + n = q.val
    omega

end Cert.LibConcatCols
-- ==== Proof.ConcatResult.lean ====
/-
  Both programs end by setting the batch's 512 features and its 64 closeness values side by side.  Whatever
  array holds the closeness values, the joined array is the specification's result.
-/
import proofs.«163702_j1176821039198_1_alg».proof.Proof.Spec
import proofs.«163702_j1176821039198_1_alg».proof.Proof.LibConcatCols

noncomputable section

namespace Cert.ConcatResult

open Idealize.ShloMosaic Idealize.ShloMosaic.ValueIdx

/-- The features `x` (512 columns) followed by an array `ob` (64 columns) whose entry `(b, o)` is the closeness
    of sample `b` in feature `o` is the result: column `q` of row `b` is `x (b, q)` below 512 and
    `ob (b, q - 512)` from 512 on, which is how the specification's `entry` is written. -/
theorem concat_eq_result (x : Cert.Spec.SX.Idx → EReal) (T : Cert.Spec.ST.Idx → EReal)
    (ob : (⟨2, ![512, 64]⟩ : Shape).Idx → EReal)
    (h : Shape.Concatenates [⟨2, ![512, 512]⟩, ⟨2, ![512, 64]⟩] ⟨2, ![512, 576]⟩ 1)
    (hob : ∀ (b : Fin 512) (o : Fin 64), ob (ix2 b o) = Cert.Spec.closeness x T b o) :
    concatenate ⟨2, ![512, 576]⟩ 1 [⟨⟨2, ![512, 512]⟩, x⟩, ⟨⟨2, ![512, 64]⟩, ob⟩] h = Cert.Spec.result x T := by
  funext j
  obtain ⟨b, q, rfl⟩ : ∃ (b : Fin 512) (q : Fin 576), j = ix2 b q := ⟨j 0, j 1, eq_ix2 j⟩
  rw [Cert.LibConcatCols.concat_cols_apply (R := 512) (n := 512) (n' := 64) (N := 576) rfl x ob h b q,
    Cert.Spec.result_ix2]
  unfold Cert.Spec.entry
  by_cases hq : q.val < 512
  · rw [dif_pos hq, dif_pos hq]
  · rw [dif_neg hq, dif_neg hq, hob]

end Cert.ConcatResult

end
-- ==== Proof.Value.Final.lean ====
/-
  The idealized kernel program's result.  Reading the buffer contents boundary by boundary: the second input
  transposed and flattened; the first region's product of the first input with it; that product reshaped to one
  16 x 64 matrix per sample, entry (k, o) of sample b being the specification's projection proj b o k; the second
  region's array of closeness values; and the final concatenation, which is the specification's result.
-/
import proofs.«163702_j1176821039198_1_alg».proof.Proof.KernelIdeal.Run
import proofs.«163702_j1176821039198_1_alg».proof.Proof.Value.MatmulArray
import proofs.«163702_j1176821039198_1_alg».proof.Proof.Value.PairwiseArray
import proofs.«163702_j1176821039198_1_alg».proof.Proof.Value.PairwiseValue
import proofs.«163702_j1176821039198_1_alg».proof.Proof.Value.HostReads
import proofs.«163702_j1176821039198_1_alg».proof.Proof.ConcatResult
import Idealize.ShloMosaic.Lib.StableHlo.Run
import Idealize.ShloMosaic.Lib.Pipeline.Value
import Idealize.ShloMosaic.Lib.ValueIdx

set_option maxRecDepth 16384

noncomputable section

namespace Cert.KernelValue

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

open Idealize.ShloMosaic.StableHlo

variable (m : (ℓ : Loc nD τ sig) → Buf (Elt Ideal) ℓ) (ρ : Dev nD → PrngReg)

/-! ## The boundaries' contents, buffer by buffer -/

theorem V1_main_arg0 (c : Dev nD) : V1 m ρ c main_arg0 = m ((c : Thread nD τ).loc main_arg0) := by
  show StableHlo.after hostOps0 (W0 m ρ c) (Proc.devRef .tc main_arg0) = _
  after_results <;> rfl

/-- The second input transposed to (i, k, o) and flattened to 512 x 1024. -/
theorem V1_main_v1 (c : Dev nD) : V1 m ρ c main_v1
    = shapeCast S512x1024 (transpose S512x16x64 [0, 2, 1] (m ((c : Thread nD τ).loc main_arg1)) Facts₀.transposes_S512x64x16_S512x16x64_0_2_1) Facts₀.shapeCasts_S512x16x64_S512x1024 := by
  show StableHlo.after hostOps0 (W0 m ρ c) (Proc.devRef .tc main_v1) = _
  after_results <;> rfl

/-- The first region leaves the product of the first input with that matrix. -/
theorem V2_main_v2 (c : Dev nD) : V2 m ρ c main_v2 = k0_pay1 (V1 m ρ c main_arg0) (V1 m ρ c main_v1) :=
  (W2_arr m ρ c 2).trans (matmul_array (V1 m ρ) c)

/-- The product reshaped to 512 x 16 x 64. -/
theorem V3_main_v3 (c : Dev nD) : V3 m ρ c main_v3 = shapeCast S512x16x64 (V2 m ρ c main_v2) Facts₀.shapeCasts_S512x1024_S512x16x64 := by
  show StableHlo.after hostOps1 (W2 m ρ c) (Proc.devRef .tc main_v3) = _
  after_results <;> rfl

/-- Entry (b, k, o) of the reshaped product is the specification's projection. -/
theorem V3_proj (c : Dev nD) (b : Fin 512) (k : Fin 16) (o : Fin 64) :
    V3 m ρ c main_v3 (ix3 b k o) = Cert.Spec.proj (m ((c : Thread nD τ).loc main_arg0)) (m ((c : Thread nD τ).loc main_arg1)) b o k := by
  rw [V3_main_v3, V2_main_v2, V1_main_arg0, V1_main_v1]
  exact m3_proj _ _ _ _ _ b k o

/-- The second region leaves the closeness values. -/
theorem V4_main_v4 (c : Dev nD) (b : Fin 512) (o : Fin 64) :
    V4 m ρ c main_v4 (ix2 b o) = Cert.Spec.closeness (m ((c : Thread nD τ).loc main_arg0)) (m ((c : Thread nD τ).loc main_arg1)) b o := by
  rw [show V4 m ρ c main_v4 = (dat1 (V3 m ρ) c).arrAt 2 cfg1.N from W4_main_v4 m ρ c, pair_array (V3 m ρ) c]
  exact pairOut_closeness _ _ _ (V3_proj m ρ c) b o

theorem V4_main_arg0 (c : Dev nD) : V4 m ρ c main_arg0 = m ((c : Thread nD τ).loc main_arg0) := by
  have h := W5_main_arg0 m ρ c
  rwa [show W5 m ρ c (Proc.devRef .tc main_arg0) = W4 m ρ c (Proc.devRef .tc main_arg0) from by
    show StableHlo.after hostOps2 (W4 m ρ c) (Proc.devRef .tc main_arg0) = _
    after_results <;> rfl] at h

/-- THE RESULT BUFFER at the end: the specification's result of the two inputs. -/
theorem W5_main_v5 (c : Dev nD) :
    W5 m ρ c (Proc.devRef .tc main_v5) = Cert.Spec.result (m ((c : Thread nD τ).loc main_arg0)) (m ((c : Thread nD τ).loc main_arg1)) := by
  have e : W5 m ρ c (Proc.devRef .tc main_v5)
      = concatenate S512x576 1 [⟨S512x512, V4 m ρ c main_arg0⟩, ⟨S512x64, V4 m ρ c main_v4⟩] Facts₀.concatenates_S512x512_S512x64_S512x576_d1 := by
    show StableHlo.after hostOps2 (W4 m ρ c) (Proc.devRef .tc main_v5) = _
    after_results <;> rfl
  rw [e, V4_main_arg0]
  exact Cert.ConcatResult.concat_eq_result _ _ (V4 m ρ c main_v4) Facts₀.concatenates_S512x512_S512x64_S512x576_d1 (V4_main_v4 m ρ c)

/-! ## The run, read -/

/-- Every weakly fair execution of the idealized kernel program terminates with its result buffer at the
    specification's result of the two inputs, and the inputs unchanged. -/
theorem run_result : θ_run (defs (F := Ideal)) (onTc (τ := τ) (main (F := Ideal))) ⟨m, fun _ => 0, ρ⟩ fun r => ∀ c : Dev nD,
      r.2.mem ((c.tc : Thread nD τ).loc main_v5) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c _ (mem_uc main_v5 (by decide))).trans (W5_main_v5 m ρ c),
     (h c _ (mem_uc main_arg0 (by decide))).trans (W5_main_arg0 m ρ c),
     (h c _ (mem_uc main_arg1 (by decide))).trans (W5_main_arg1 m ρ c)⟩)
    (run_all m ρ)

end Cert.KernelValue

end
-- ==== Proof.RefValue.lean ====
/-
  The reference program's result, read one operation at a time, is the specification's `result`.

  The program flattens the tensor `T` to 512 x 1024, multiplies the batch by it and folds the product back to
  512 x 64 x 16: entry `(b, o, k)` of that array is the projection `proj b o k`.  It then places the projections
  along a new leading axis and along a new second axis, subtracts, takes absolute values and sums over `k`:
  entry `(a, b, o)` is the L1 distance `dist b a o`.  Negation, the exponential, the sum over the leading axis
  `a` and the subtraction of the constant one give the closeness of `b` in feature `o`; the last operation sets
  the features and the closeness values side by side.
-/
import proofs.«163702_j1176821039198_1_alg».proof.Proof.Gen.ReferenceIdeal.Read
import proofs.«163702_j1176821039198_1_alg».proof.Proof.Spec
import proofs.«163702_j1176821039198_1_alg».proof.Proof.ConcatResult

noncomputable section

namespace Cert.RefValue

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

variable (x : (⟨S512x512, .f32⟩ : BufTy).Contents (Elt Ideal)) (T : (⟨S512x64x16, .f32⟩ : BufTy).Contents (Elt Ideal))

/-- The folded product at `(b, o, k)` is the projection: position `(b, o, k)` of the 512 x 64 x 16 array is
    position `(b, o * 16 + k)` of the 512 x 1024 product, whose entry is the sum over `i` of `x (b, i)` times the
    flattened tensor at `(i, o * 16 + k)`, and that position of the flattened tensor is `T (i, o, k)`. -/
theorem proj_apply (b : Fin 512) (o : Fin 64) (k : Fin 16) :
    val_main_v2 (F := Ideal) x T (ix3 b o k) = Cert.Spec.proj x T b o k := by
  rw [val_main_v2_apply, val_main_v1_apply]
  unfold Cert.Spec.proj
  refine Finset.sum_congr rfl fun i _ => ?_
  rw [val_main_v0_apply]
  have hb := b.isLt
  have ho := o.isLt
  have hk := k.isLt
  have hi := i.isLt
  have el : lidx_main_v1 (idx_main_v2 (ix3 b o k)) i = ix2 b i := funext fun a => Fin.ext (by
    match a with
    | ⟨0, _⟩ => show ((b.val * 64 + o.val) * 16 + k.val) / 1024 = b.val; omega
    | ⟨1, _⟩ => rfl)
  have er : idx_main_v0 (ridx_main_v1 (idx_main_v2 (ix3 b o k)) i) = ix3 i o k := funext fun a => Fin.ext (by
    match a with
    | ⟨0, _⟩ => show (i.val * 1024 + ((b.val * 64 + o.val) * 16 + k.val) % 1024) / 1024 = i.val; omega
    | ⟨1, _⟩ => show (i.val * 1024 + ((b.val * 64 + o.val) * 16 + k.val) % 1024) / 16 % 64 = o.val; omega
    | ⟨2, _⟩ => show (i.val * 1024 + ((b.val * 64 + o.val) * 16 + k.val) % 1024) % 16 = k.val; omega)
  rw [el, er]

/-- The difference array at `(a, b, o, k)`: the projections were placed along a new leading axis (so the first
    operand does not depend on `a`) and along a new second axis (so the second does not depend on `b`). -/
theorem diff_apply (a b : Fin 512) (o : Fin 64) (k : Fin 16) :
    val_main_v7 (F := Ideal) x T (ix4 a b o k) = Cert.Spec.proj x T b o k - Cert.Spec.proj x T a o k := by
  have e5 : idx_main_v3 (idx_main_v5 (ix4 a b o k)) = ix3 b o k := funext fun d => Fin.ext (by
    match d with
    | ⟨0, _⟩ => rfl
    | ⟨1, _⟩ => rfl
    | ⟨2, _⟩ => rfl)
  have e6 : idx_main_v4 (idx_main_v6 (ix4 a b o k)) = ix3 a o k := funext fun d => Fin.ext (by
    match d with
    | ⟨0, _⟩ => rfl
    | ⟨1, _⟩ => rfl
    | ⟨2, _⟩ => rfl)
  rw [val_main_v7_apply, val_main_v5_apply, val_main_v3_apply, val_main_v6_apply, val_main_v4_apply, e5, e6,
    proj_apply, proj_apply]
  rfl

/-- The sum over `k` of the absolute differences, at `(a, b, o)`, is the L1 distance of `b` and `a` in feature
    `o` (the sum starts from the constant zero). -/
theorem dist_apply (a b : Fin 512) (o : Fin 64) :
    val_main_v9 (F := Ideal) x T (ix3 a b o) = Cert.Spec.dist x T b a o := by
  have hz : (val_main_cst (F := Ideal)) (Shape.Idx.first h_S_) = 0 := Ideal.ofBits_zero_f32
  rw [val_main_v9_apply, hz, zero_add]
  unfold Cert.Spec.dist
  refine Finset.sum_congr rfl fun k _ => ?_
  have e : idx_main_v9 (ix3 a b o) k = ix4 a b o k := funext fun d => Fin.ext (by
    match d with
    | ⟨0, _⟩ => rfl
    | ⟨1, _⟩ => rfl
    | ⟨2, _⟩ => rfl
    | ⟨3, _⟩ => rfl)
  rw [e, val_main_v8_apply, diff_apply]
  rfl

/-- The reference's 512 x 64 array at `(b, o)` is the closeness of sample `b` in feature `o`: the sum over the
    leading axis `a` of `exp (-dist b a o)` (from the constant zero), less the constant one. -/
theorem closeness_apply (b : Fin 512) (o : Fin 64) :
    val_main_v14 (F := Ideal) x T (ix2 b o) = Cert.Spec.closeness x T b o := by
  have hz : (val_main_cst_0 (F := Ideal)) (Shape.Idx.first h_S_) = 0 := Ideal.ofBits_zero_f32
  rw [val_main_v14_apply, val_main_v12_apply, val_main_v13_apply, val_main_cst_1_apply, hz, zero_add]
  unfold Cert.Spec.closeness
  have es : ∑ a : Fin 512, val_main_v11 (F := Ideal) x T (idx_main_v12 (ix2 b o) a)
      = ∑ a : Fin 512, Ideal.exp (-(Cert.Spec.dist x T b a o)) := by
    refine Finset.sum_congr rfl fun a _ => ?_
    have e : idx_main_v12 (ix2 b o) a = ix3 a b o := funext fun d => Fin.ext (by
      match d with
      | ⟨0, _⟩ => rfl
      | ⟨1, _⟩ => rfl
      | ⟨2, _⟩ => rfl)
    rw [e, val_main_v11_apply, val_main_v10_apply, dist_apply]
    rfl
  rw [es]
  rfl

/-- The reference's result is the specification's. -/
theorem ref_result : val_main_v15 (F := Ideal) x T = Cert.Spec.result x T := by
  unfold val_main_v15
  exact Cert.ConcatResult.concat_eq_result x T (val_main_v14 (F := Ideal) x T)
    concatenates_S512x512_S512x64_S512x576_d1 (fun b o => closeness_apply x T b o)

/-- Every weakly fair execution of the reference program, from any memory with zero counters, terminates with its
    result buffer holding the specification's result of the two arguments, and the arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v15_eq (F := Ideal) _ _).trans (ref_result _ _)), (h c).2⟩)
    (Cert.ReferenceIdeal.Value.run (F := Ideal) m ρ)

end Cert.RefValue

end
-- ==== Proof.lean ====
/-
  The certificate's claims, assembled.

  The kernel program computes, for a batch x of 512 samples and a tensor T of shape 512 x 64 x 16, the projections
  proj b o k = sum over i of x(b,i) * T(i,o,k) by one matrix product (first kernel region), and then, per feature o, the
  closeness of every sample b to the batch: the sum over all samples a of exp(-(L1 distance of the two samples'
  16-vectors)), minus one, accumulated over four blocks of 128 samples a (second kernel region); the result is the
  input's 512 columns followed by the 64 closeness columns.  The reference computes the same quantity with one
  512 x 512 x 64 x 16 tensor of differences.  On the extended reals both are the one function `Cert.Spec.result`:
  the sums differ only in grouping and order, which addition on the extended reals does not see, so the finiteness
  precondition is never opened.

  The three frame claims: the kernel program's runs (at either instance) terminate with both inputs unchanged because
  every host operation writes a fresh buffer and each region writes only its own result array; the reference's run is
  its operations' run with the result dropped.  The idealized kernel is the printed kernel read at the ideal instance
  with no rewrite, so there is nothing to preserve.
-/
import proofs.«163702_j1176821039198_1_alg».proof.Defs
import proofs.«163702_j1176821039198_1_alg».proof.Proof.Gen.Kernel
import proofs.«163702_j1176821039198_1_alg».proof.Proof.Gen.KernelIdeal
import proofs.«163702_j1176821039198_1_alg».proof.Proof.Gen.ReferenceIdeal
import proofs.«163702_j1176821039198_1_alg».proof.Proof.Gen.Pre_finite_inputs
import proofs.«163702_j1176821039198_1_alg».proof.Proof.Kernel.Run
import proofs.«163702_j1176821039198_1_alg».proof.Proof.KernelIdeal.Run
import proofs.«163702_j1176821039198_1_alg».proof.Proof.Value.Final
import proofs.«163702_j1176821039198_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Frame.frame m ρ

theorem frame_ki : @Cert.frame_KernelIdeal Cert.KernelIdeal.Gen.facts Cert.Pre_finite_inputs.Gen.facts :=
  fun m ρ _ => Cert.KernelIdeal.Frame.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the specification's result of inputs that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelValue.run_result m ρ, ?_⟩
  refine (θ_run Cert.ReferenceIdeal.defs _ _).mono (fun _ h c => ⟨(h c).1.trans ?_, (h c).2⟩) (Cert.RefValue.run_result m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
